-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S512x1024 : Shape := ⟨2, ![512, 1024]⟩
abbrev S512 : Shape := ⟨1, ![512]⟩
abbrev S512x512 : Shape := ⟨2, ![512, 512]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S1024x1024 .f32) (main_arg1 : FVec F S512x1024 .f32) (main_arg2 : FVec F S512 .f32) (main_arg3 : FVec F S512x512 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S1024x1024 : Shape := ⟨2, ![1024, 1024]⟩
abbrev S512x1024 : Shape := ⟨2, ![512, 1024]⟩
abbrev S512 : Shape := ⟨1, ![512]⟩
abbrev S512x512 : Shape := ⟨2, ![512, 512]⟩
abbrev S1024x512 : Shape := ⟨2, ![1024, 512]⟩
abbrev S256x1024 : Shape := ⟨2, ![256, 1024]⟩
abbrev S256x512 : Shape := ⟨2, ![256, 512]⟩
abbrev S1x512 : Shape := ⟨2, ![1, 512]⟩
abbrev S32x128 : Shape := ⟨2, ![32, 128]⟩
abbrev S128x128 : Shape := ⟨2, ![128, 128]⟩
abbrev S32x1x128 : Shape := ⟨3, ![32, 1, 128]⟩
abbrev S1x128x128 : Shape := ⟨3, ![1, 128, 128]⟩
abbrev S32x128x128 : Shape := ⟨3, ![32, 128, 128]⟩

abbrev nBuf : Space → Nat
  | .hbm => 6
  | .vmem => 13
  | .smem => 0
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512, .f32⟩
  | .hbm, ⟨3, _⟩ => ⟨S512x512, .f32⟩
  | .hbm, ⟨4, _⟩ => ⟨S1024x512, .f32⟩
  | .hbm, ⟨5, _⟩ => ⟨S1024x512, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512, .f32⟩
  | .local _ .vmem, ⟨4, _⟩ => ⟨S256x512, .f32⟩
  | .local _ .vmem, ⟨5, _⟩ => ⟨S256x512, .f32⟩
  | .local _ .vmem, ⟨6, _⟩ => ⟨S32x128, .f32⟩
  | .local _ .vmem, ⟨7, _⟩ => ⟨S32x128, .f32⟩
  | .local _ .vmem, ⟨8, _⟩ => ⟨S128x128, .f32⟩
  | .local _ .vmem, ⟨9, _⟩ => ⟨S128x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![32, 4, 4], ![false, false, false]⟩

def k1_cond2 (i : grid1.Coords) : BitVec 1 :=
  let arg2 : BitVec 32 := BitVec.ofNat 32 (i 2).val
  let c3_i32 : BitVec 32 := 3#32
  let v28 : BitVec 1 := Scalar.cmpi .eq arg2 c3_i32
  let v29 : BitVec 32 := Scalar.extui v28
  let c0_i32_10 : BitVec 32 := 0#32
  let v30 : BitVec 1 := Scalar.cmpi .ne v29 c0_i32_10
  v30

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S32x1x128 : S32x128.ShapeCasts S32x1x128
  inb_S128x128_S128x128_0_0 : ∀ a, (![0, 0] : Fin 2 → Nat) a + S128x128.size a ≤ S128x128.size a
  h_S128x128 : 0 < S128x128.numel
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  reduces_S32x128x128_S32x128 : S32x128x128.Reduces [2] S32x128
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S1024x512.size a
  hwx0_3 : ∀ i : grid0.Coords, EltTy.bits .f32 = 32 ∨ (Rect.block (s := S1024x512) S256x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128.size a ≤ S1024x512.size a
  hwx1_0 : ∀ i : grid1.Coords, EltTy.bits .f32 = 32 ∨ (Rect.block (s := S1024x512) S32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S1024x512.size a
  hwx1_2 : ∀ i : grid1.Coords, EltTy.bits .f32 = 32 ∨ (Rect.block (s := S1024x512) S32x128.size (cc1_transform_2 i) (hinb1_2 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S32x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1024x1024 : Shape := ⟨2, ![1024, 1024]⟩
abbrev S512x1024 : Shape := ⟨2, ![512, 1024]⟩
abbrev S512 : Shape := ⟨1, ![512]⟩
abbrev S512x512 : Shape := ⟨2, ![512, 512]⟩
abbrev S1024x512 : Shape := ⟨2, ![1024, 512]⟩
abbrev S1x512 : Shape := ⟨2, ![1, 512]⟩
abbrev S_ : Shape := ⟨0, ![]⟩
abbrev S1024x1x512 : Shape := ⟨3, ![1024, 1, 512]⟩
abbrev S1x512x512 : Shape := ⟨3, ![1, 512, 512]⟩
abbrev S1024x512x512 : Shape := ⟨3, ![1024, 512, 512]⟩

abbrev nBuf : Space → Nat
  | .hbm => 46
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S512x1024, .f32⟩
  | .hbm, ⟨2, _⟩ => ⟨S512, .f32⟩
  | .hbm, ⟨3, _⟩ => ⟨S512x512, .f32⟩
  | .hbm, ⟨4, _⟩ => ⟨S1024x512, .f32⟩
  | .hbm, ⟨5, _⟩ => ⟨S1x512, .f32⟩
  | .hbm, ⟨6, _⟩ => ⟨S1024x512, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x1x512, .f32⟩
  | .hbm, ⟨12, _⟩ => ⟨S1x512x512, .f32⟩
  | .hbm, ⟨13, _⟩ => ⟨S1024x512x512, .f32⟩
  | .hbm, ⟨14, _⟩ => ⟨S1024x512x512, .f32⟩
  | .hbm, ⟨15, _⟩ => ⟨S1024x512x512, .f32⟩
  | .hbm, ⟨16, _⟩ => ⟨S1024x512x512, .f32⟩
  | .hbm, ⟨17, _⟩ => ⟨S1024x1x512, .f32⟩
  | .hbm, ⟨18, _⟩ => ⟨S1x512x512, .f32⟩
  | .hbm, ⟨19, _⟩ => ⟨S1024x512x512, .f32⟩
  | .hbm, ⟨20, _⟩ => ⟨S1024x512x512, .f32⟩
  | .hbm, ⟨21, _⟩ => ⟨S1024x512x512, .f32⟩
  | .hbm, ⟨22, _⟩ => ⟨S_, .f32⟩
  | .hbm, ⟨23, _⟩ => ⟨S1024x512x512, .f32⟩
  | .hbm, ⟨24, _⟩ => ⟨S1024x512x512, .i1⟩
  | .hbm, ⟨25, _⟩ => ⟨S_, .f32⟩
  | .hbm, ⟨26, _⟩ => ⟨S_, .f32⟩
  | .hbm, ⟨27, _⟩ => ⟨S1024x512x512, .f32⟩
  | .hbm, ⟨28, _⟩ => ⟨S1024x512x512, .f32⟩
  | .hbm, ⟨29, _⟩ => ⟨S1024x512x512, .f32⟩
  | .hbm, ⟨30, _⟩ => ⟨S_, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024x512, .f32⟩
  | .hbm, ⟨39, _⟩ => ⟨S1024x512, .f32⟩
  | .hbm, ⟨40, _⟩ => ⟨S_, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  bcast_S_S1024x512x512 : S_.BroadcastsInDim S1024x512x512 (![] : Fin 0 → Fin S1024x512x512.rank)
  reducesTo_S1024x512x512_S1024x512_d2 : S1024x512x512.ReducesTo [2] S1024x512
  h_S_ : 0 < S_.numel
  dot_S1024x1024_S512x1024_S1024x512_1_1_0_0_n_n_wf : DotDims.WF S1024x1024 S512x1024 S1024x512 [1] [1] [0] [0] [] []

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

class Facts : Prop extends Facts₀ where

variable [Facts]
-- ==== Proof.KRegion0.lean ====
/- Region 0 of the kernel: the hidden layer h = max(x·W1ᵀ + b1, 0), computed one block of 256 rows at a time
   on a grid of 4 points. Everything here is stated at a PARAMETER V — the core's buffer contents when the
   region is entered — and for any float instance F.

   Window 0 is the block of 256 rows of x at the point; windows 1 and 2 are the whole weight matrix and the
   whole bias vector (their block index never moves, so they are fetched once and found again at every later
   point); window 3 is the block of 256 rows of h the point writes. The body reads its three inputs whole,
   and overwrites the output block whole with one payload, so what it leaves in the output buffer is a closed
   function of the three input blocks: out0_3. -/
import proofs.«171390_j89988154785962_1_alg».proof.Proof.Gen.Kernel.Launch
import proofs.«171390_j89988154785962_1_alg».proof.Proof.Gen.Kernel.Skeleton
import proofs.«171390_j89988154785962_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is looked at structurally, once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current staging buffer holds its block of rows at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched at the first point only; its block index is constant, so at a later point the
    buffer still holds the block fetched before, which is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the four buffers through its whole rectangle -/

abbrev r0_0 : Rect S256x1024 := Rect.unit (s := S256x1024) ![0, 0] S256x1024.size inb_S256x1024_S256x1024_0_0
abbrev r0_1 : Rect S512x1024 := Rect.unit (s := S512x1024) ![0, 0] S512x1024.size inb_S512x1024_S512x1024_0_0
abbrev r0_2 : Rect S512 := Rect.unit (s := S512) ![0] S512.size inb_S512_S512_0
abbrev r0_3 : Rect S256x512 := Rect.unit (s := S256x512) ![0, 0] S256x512.size inb_S256x512_S256x512_0_0

/-! ## What the body leaves in the output window's buffer -/

/-- The output buffer after the body, from the three input blocks: its one store, of the payload
    max(x·W1ᵀ + b1, 0) of the three loads, over the whole buffer. -/
def out0_3 (x0 : Vec F S256x1024 .f32) (x1 : Vec F S512x1024 .f32) (x2 : Vec F S512 .f32) : Vec F S256x512 .f32 :=
  View.canon [⟨r0_3, k0_pay1 (View.ld x0 r0_0) (View.ld x1 r0_1) (View.ld x2 r0_2)⟩]

/-- The one store's rectangle is the whole buffer, so it covers it. -/
theorem cover0_3 (p0 : Vec F S256x512 .f32) (y : S256x512.Idx) :
    ∃ pc ∈ ([⟨r0_3, p0⟩] : List (View.Piece (Elt F) S256x512 .f32)), y ∈ pc.1.set :=
  View.cover_of_tiled [⟨r0_3, p0⟩] S256x512.size (by rfl) y

/-! ## The body's triple -/

set_option maxHeartbeats 1000000 in
/-- The body on whole staging memrefs — the three inputs' at read contents x0, x1, x2, the output's at anything —
    runs to the continuation with the inputs' as they were and the output's at out0_3 of the inputs'. -/
theorem sound_kernel0 (c : Dev nD) (E : Set ℕ) (i : grid0.Coords)
    (arg0 : Memref sig .tc .vmem S256x1024 .f32) (harg0 : arg0.IsWhole) (arg1 : Memref sig .tc .vmem S512x1024 .f32) (harg1 : arg1.IsWhole)
    (arg2 : Memref sig .tc .vmem S512 .f32) (harg2 : arg2.IsWhole) (arg3 : Memref sig .tc .vmem S256x512 .f32) (harg3 : arg3.IsWhole)
    (x0 : Vec F S256x1024 .f32) (x1 : Vec F S512x1024 .f32) (x2 : Vec F S512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__mlp_kernel i arg0 harg0 arg1 harg1 arg2 harg2 arg3 harg3) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core c: the arrays as the region finds them; after the body at point t each
    input's buffer still at its block and the output's at out0_3 of the three input blocks; the invariant is the
    untouched rest (the scoped buffers of the other region and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t: the invariant, what the core owes, and the four current staging
    buffers, each at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KRegion1Data.lean ====
/-
  Region 1 (the distance kernel) — its proof data.

  The grid is (row block, prototype block, feature block) = 32 × 4 × 4, walked with the feature block fastest, so point
  n has feature block n % 4. The kernel keeps a 32 × 128 accumulator between points: at feature block 0 it restarts it
  from zero, at every point it adds that point's partial sums of the Canberra terms, and at feature block 3 it stores
  the reciprocal of the shifted, clipped accumulator into the output block. So what the accumulator holds after point n
  is defined by recursion on n, and the output block after point n is a function of it.
-/
import proofs.«171390_j89988154785962_1_alg».proof.Proof.Gen.Kernel.Launch
import proofs.«171390_j89988154785962_1_alg».proof.Proof.Gen.Kernel.Skeleton
import proofs.«171390_j89988154785962_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at point `n`: this point's partial sums added to zero at feature block 0, and to
    what the point before left otherwise. -/
def accAt (c : Dev nD) : (n : ℕ) → n < cfg1.N → Vec F S32x128 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt c n (Nat.lt_of_succ_lt hn))

/-- At feature block 0 the accumulator restarts from zero. -/
theorem accAt_first (c : Dev nD) (t : Fin cfg1.N) (h : t.val % 4 = 0) :
    accAt V c t.val t.isLt = k1_pay2 (iblk1 V c 0 t) (iblk1 V c 1 t) k1_pay1 := by
  obtain ⟨n, hn⟩ := t
  cases n with
  | zero => rfl
  | succ n => exact if_pos h

/-- At the other feature blocks it adds to what the point before left. -/
theorem accAt_next (c : Dev nD) (t : Fin cfg1.N) (h : ¬t.val % 4 = 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The output block's staging buffer after the body at point `t` (stored at feature block 3 only; elsewhere nothing
    reads this value). -/
def outAt (c : Dev nD) (t : Fin cfg1.N) : Vec F S32x128 .f32 := k1_pay3 (accAt V c t.val t.isLt)

/-- The accumulator's buffer, passed to the kernel beside the windows. -/
abbrev scM : Memref sig .tc .vmem S32x128 .f32 := Memref.whole cc1_scratch0

/-- The other kernel's six staging buffers, each whole at some contents: they ride along untouched. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region's invariant before position `n`: before the first point every scoped buffer no window stages at some
    contents and the generator register at some state; afterwards the accumulator at what the point before left. -/
def PhiS (c : Dev nD) : (n : ℕ) → n ≤ cfg1.N → sProp 𝕄
  | 0, _ => Pipeline.ΦA spec1 c
  | n + 1, hn => iprop(owns (c : Thread nD τ) scM fullShare (accAt V c n hn) ∗ others c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (accAt V c n hn) ∗ others c ∗ (∃ r, prngReg c r)) := rfl

theorem PhiS_pos (c : Dev nD) (n : ℕ) (h : n ≤ cfg1.N) (hz : n ≠ 0) :
    PhiS V c n h = iprop(owns (c : Thread nD τ) scM fullShare (accAt V c (n - 1) (by omega)) ∗ others c ∗ (∃ r, prngReg c r)) := by
  cases n with
  | zero => exact absurd rfl hz
  | succ n => rfl

/-- The proof data of the region on core `c`: the arrays as the region finds them; after the body each input's buffer
    at its block and the output's at `outAt`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Cert.Kernel.Frame

end
-- ==== Proof.KRegion1Body.lean ====
/-
  Region 1 (the distance kernel) — the body at every grid point.

  Three kinds of point, by the feature block n % 4: the first (the accumulator restarts from zero), the middle ones
  (it adds to what the point before left) and the last (it adds, then the output block is stored). At each the body,
  run on whole memrefs, leaves the accumulator at `accAt` and — at the last — the output buffer at `outAt`; at the other
  points the output buffer is handed back as it was found.
-/
import proofs.«171390_j89988154785962_1_alg».proof.Proof.KRegion1Data
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "The feature block is the first": the condition under which the body restarts the accumulator. -/
abbrev cond1_0 (i : grid1.Coords) : Prop := (Scalar.cmpi .ne (Scalar.extui (Scalar.cmpi .eq (BitVec.ofNat 32 (i 2).val) 0#32)) 0#32) = 1#1
/-- "The feature block is the last": the condition under which the body stores the output block. -/
abbrev cond1_1 (i : grid1.Coords) : Prop := k1_cond2 i = 1#1

/-- Both rectangles the body touches start at the origin. -/
theorem origin2 : (![0, 0] : Fin 2 → Nat) = fun _ => 0 := by
  funext a; fin_cases a <;> rfl

/-! ## The body on whole memrefs, case by case -/

set_option maxHeartbeats 2000000 in
/-- First feature block (and not the last): the accumulator, whatever it held, ends at this point's partial sums added
    to zero; the output buffer is handed back untouched. -/
theorem sound_first (c : Dev nD) (E : Set ℕ) (i : grid1.Coords) (arg3 : Memref sig .tc .vmem S32x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128 .f32) (harg6 : arg6.IsWhole)
    (hc0 : cond1_0 i) (hc1 : ¬cond1_1 i)
    (x0 : Vec F S32x128 .f32) (x1 : Vec F S128x128 .f32) (xi : Vec F S32x128 .f32) (K : PUnit → sProp 𝕄) :
    iprop(owns (c : Thread nD τ) arg3 fullShare x0 ∗ owns (c : Thread nD τ) arg4 fullShare x1 ∗ owns (c : Thread nD τ) arg5 fullShare xi ∗ (∃ xs, owns (c : Thread nD τ) arg6 fullShare xs)
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 k1_pay1)) -∗ K ⟨⟩))
      ⊢ wp frame (wpE (defs₀ (F := F)) Variants.none c none) E (cc1__dist_kernel i arg3 harg3 arg4 harg4 arg5 harg5 arg6 harg6) K := by
  simp only [cc1__dist_kernel_eq_skeleton]; unfold cc1__dist_kernel_skel
  unfold owns
  iintro ⟨⟨%f0, %hf0, H0⟩, ⟨%f1, %hf1, H1⟩, ⟨%f2, %hf2, H2⟩, ⟨%xs, %fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (View.cover_of_tiled _ S32x128.size (by rfl))]
  rw [View.canon_cons_unit_zero origin2]
  simp only [View.readAt_eq_ld, harg3.read_unread, harg4.read_unread, View.readCov_unit_zero (S := S32x128) _ origin2,
    View.ld_unit_zero (S := S32x128) origin2, View.ld_unit_zero (S := S128x128) origin2]

set_option maxHeartbeats 2000000 in
/-- A middle feature block: the accumulator ends at this point's partial sums added to what it held; the output buffer
    is handed back untouched. -/
theorem sound_middle (c : Dev nD) (E : Set ℕ) (i : grid1.Coords) (arg3 : Memref sig .tc .vmem S32x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128 .f32) (harg6 : arg6.IsWhole)
    (hc0 : ¬cond1_0 i) (hc1 : ¬cond1_1 i)
    (x0 : Vec F S32x128 .f32) (x1 : Vec F S128x128 .f32) (xi : Vec F S32x128 .f32) (xs : Vec F S32x128 .f32) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 xs)) -∗ K ⟨⟩))
      ⊢ wp frame (wpE (defs₀ (F := F)) Variants.none c none) E (cc1__dist_kernel i arg3 harg3 arg4 harg4 arg5 harg5 arg6 harg6) K := by
  simp only [cc1__dist_kernel_eq_skeleton]; unfold cc1__dist_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (View.cover_of_tiled _ S32x128.size (by rfl))]
  rw [View.canon_unit_zero origin2]
  simp only [View.readAt_eq_ld, harg3.read_unread, harg4.read_unread, harg6.read_unread,
    View.ld_unit_zero (S := S32x128) origin2, View.ld_unit_zero (S := S128x128) origin2]

set_option maxHeartbeats 2000000 in
/-- Last feature block (and not the first): the accumulator ends at this point's partial sums added to what it held,
    and the output buffer, whatever it held, at the reciprocal of the shifted, clipped accumulator. -/
theorem sound_last (c : Dev nD) (E : Set ℕ) (i : grid1.Coords) (arg3 : Memref sig .tc .vmem S32x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128 .f32) (harg6 : arg6.IsWhole)
    (hc0 : ¬cond1_0 i) (hc1 : cond1_1 i)
    (x0 : Vec F S32x128 .f32) (x1 : Vec F S128x128 .f32) (xs : Vec F S32x128 .f32) (K : PUnit → sProp 𝕄) :
    iprop(owns (c : Thread nD τ) arg3 fullShare x0 ∗ owns (c : Thread nD τ) arg4 fullShare x1 ∗ (∃ xi, owns (c : Thread nD τ) arg5 fullShare xi) ∗ owns (c : Thread nD τ) arg6 fullShare xs
        ∗ (iprop(owns (c : Thread nD τ) arg3 fullShare x0 ∗ owns (c : Thread nD τ) arg4 fullShare x1 ∗ owns (c : Thread nD τ) arg5 fullShare (k1_pay3 (k1_pay2 x0 x1 xs)) ∗ owns (c : Thread nD τ) arg6 fullShare (k1_pay2 x0 x1 xs)) -∗ K ⟨⟩))
      ⊢ wp frame (wpE (defs₀ (F := F)) Variants.none c none) E (cc1__dist_kernel i arg3 harg3 arg4 harg4 arg5 harg5 arg6 harg6) K := by
  simp only [cc1__dist_kernel_eq_skeleton]; unfold cc1__dist_kernel_skel
  unfold owns
  iintro ⟨⟨%f0, %hf0, H0⟩, ⟨%f1, %hf1, H1⟩, ⟨%xi, %f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (View.cover_of_tiled _ S32x128.size (by rfl))]
    rw [View.canon_unit_zero origin2]
    simp only [View.readAt_eq_ld, harg3.read_unread, harg4.read_unread, harg6.read_unread, View.readCov_unit_zero (S := S32x128) _ origin2,
      View.ld_unit_zero (S := S32x128) origin2, View.ld_unit_zero (S := S128x128) origin2]
  iexists _; isplitr
  swap; · iexact HS
  ipureintro
  sl_unfold_run_names
  rw [View.read_writes_eq_canon _ _ _ (View.cover_of_tiled _ S32x128.size (by rfl))]
  rw [View.canon_unit_zero origin2]
  simp only [View.readAt_eq_ld, harg3.read_unread, harg4.read_unread, harg6.read_unread,
    View.ld_unit_zero (S := S32x128) origin2, View.ld_unit_zero (S := S128x128) origin2]

/-! ## The inputs' staging buffers hold their blocks -/

variable (V : (c : Dev nD) → (b : Ref sig .tc) → Buf (Elt F) ((c : Thread nD τ).loc b))

/-- The hidden-layer window's current buffer holds its block at every point: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The prototype window's likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The conditions in closed form, and where the output window is idle -/

/-- The feature block of point `t` is the first exactly when `t ≡ 0 (mod 4)` — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)
/-- It is the last exactly when `t ≡ 3 (mod 4)`. -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last feature block the body stores nothing into the output window, -/
theorem idleAt1_2 : ∀ t : Fin cfg1.N, ¬cond1_1 (grid1.coords t) → cfg1.idle 2 (grid1.coords t) = true := by decide +kernel
/-- and the pipeline does not write its block back; -/
theorem noFlush1_2 : ∀ t : Fin cfg1.N, ¬cond1_1 (grid1.coords t) → (cfg1.win 2).flush t = false := by decide +kernel
/-- at the last it stores. -/
theorem liveAt1_2 : ∀ t : Fin cfg1.N, cond1_1 (grid1.coords t) → cfg1.idle 2 (grid1.coords t) = false := by decide +kernel

/-! ## The invariant before the first point, spelled out -/

/-- Before the first point: the other kernel's staging buffers and the accumulator, each at some contents, and the
    generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ d, owns (c : Thread nD τ) scM fullShare d)) ∗ (∃ r, prngReg c r)) := by
  unfold Pipeline.ΦA; rw [scopedRest1_eq]; simp only [scM, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's feature block decides the case; the
    invariant hands the body the accumulator at what the point before left (at anything before the first point) and
    takes it back at this point's contents; the other scoped buffers and the generator register pass through; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h1 : t.val % 4 = 3
  · have h0 : ¬t.val % 4 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    unfold outAt
    rw [accAt_next V c t h0]
    rw [PhiS_castSucc V c t, PhiS_pos V c _ _ hz]
    iintro ⟨⟨HS, Hoth, Hg⟩, Ho, ⟨%d0, H0⟩, ⟨%d1, H1⟩, ⟨%d2, H2⟩⟩
    iapply (sound_last c Set.univ (grid1.coords t) _ _ _ _ _ _ scM (Memref.isWhole_whole _) (fun h => h0 ((hcond1_0 t).mp h)) ((hcond1_1 t).mpr h1) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [accAt_first V c t h0]
      by_cases hz : t.val = 0
      · rw [PhiS_castSucc V c t, PhiS_zero V c _ _ hz, PhiA1_eq]
        iintro ⟨⟨⟨Ha, Hb, Hc, Hd, He, Hf, HS⟩, Hg⟩, Ho, ⟨%d0, H0⟩, ⟨%d1, H1⟩, ⟨%d2, H2⟩⟩
        iapply (sound_first c Set.univ (grid1.coords t) _ _ _ _ _ _ scM (Memref.isWhole_whole _) ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexact HS
        iintro ⟨H0, H1, H2, HS⟩
        isplitl [HS Ha Hb Hc Hd He Hf Hg]
        · isplitl [HS]; · iexact HS
          isplitr [Hg]
          · unfold others
            isplitl [Ha]; · iexact Ha
            isplitl [Hb]; · iexact Hb
            isplitl [Hc]; · iexact Hc
            isplitl [Hd]; · iexact Hd
            isplitl [He]; · iexact He
            iexact Hf
          iexact Hg
        isplitl [Ho]; · iexact Ho
        isplitl [H0]; · iexact H0
        isplitl [H1]; · iexact H1
        iexists _; iexact H2
      · rw [PhiS_castSucc V c t, PhiS_pos V c _ _ hz]
        iintro ⟨⟨HS, Hoth, Hg⟩, Ho, ⟨%d0, H0⟩, ⟨%d1, H1⟩, ⟨%d2, H2⟩⟩
        iapply (sound_first c Set.univ (grid1.coords t) _ _ _ _ _ _ scM (Memref.isWhole_whole _) ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        iexists _; iexact H2
    · have hz : t.val ≠ 0 := by omega
      rw [accAt_next V c t h0]
      rw [PhiS_castSucc V c t, PhiS_pos V c _ _ hz]
      iintro ⟨⟨HS, Hoth, Hg⟩, Ho, ⟨%d0, H0⟩, ⟨%d1, H1⟩, ⟨%d2, H2⟩⟩
      iapply (sound_middle c Set.univ (grid1.coords t) _ _ _ _ _ _ scM (Memref.isWhole_whole _) (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's form back: the accumulator's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold others
  iintro ⟨HS, ⟨Ha, Hb, Hc, Hd, He, Hf⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexists _; iexact HS
  iexact Hg

/-- The same after the last point. -/
theorem hout1 (c : Dev nD) : (dat1 V c).Φ (Fin.last cfg1.N) ⊢ Pipeline.ΦA spec1 c :=
  Phi_out V c _ (by rw [Fin.val_last]; have : cfg1.N = 512 := N_1; omega)

end Cert.Kernel.Frame

end
-- ==== Proof.KRun.lean ====
/- The run of the whole program: the two kernel regions one after the other, from the launch to the return.

   The program has no host operation: it enters region 0 (the hidden layer) from the launch memory, and region 1
   (the distances) from what region 0 leaves. So the buffer contents at the three boundaries are: the launch
   memory; the same with region 0's output array h at what its write-backs leave; and that with region 1's output
   array at what ITS write-backs leave. Every argument array is read by a region only through an input window (or
   is no window of it at all), so it walks back through the boundaries to its launch contents. -/
import proofs.«171390_j89988154785962_1_alg».proof.Proof.KRegion0
import proofs.«171390_j89988154785962_1_alg».proof.Proof.KRegion1Data
import proofs.«171390_j89988154785962_1_alg».proof.Proof.KRegion1Body

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- Region 0's entry contents: the launch memory, read at the core's references. -/
abbrev Ve0 : (c : Dev nD) → (b : Ref sig .tc) → Buf (Elt F) ((c : Thread nD τ).loc b) := fun c b => W0 m c b
/-- At region 0's exit: its arrays at what the pipeline leaves (the inputs as entered, the output's write-backs
    folded), every other buffer as entered. -/
def W2 (c : Dev nD) : Valuation τ sig (Elt F) :=
  Pipeline.withArrays spec0 c (W0 m c) fun w => (dat0 (Ve0 m) c).arrAt w cfg0.N
theorem W2_arr (c : Dev nD) (w : Fin cfg0.W) :
    W2 m c (Proc.devRef .tc (Pipeline.arrRef spec0 w)) = (dat0 (Ve0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- Region 1's entry contents: what region 0 leaves (nothing runs between the two). -/
abbrev Ve1 : (c : Dev nD) → (b : Ref sig .tc) → Buf (Elt F) ((c : Thread nD τ).loc b) := fun c b => W2 m c b
theorem hF0 (c : Dev nD) (w : Fin cfg0.W) : (dat0 (Ve0 m) c).arrAt w cfg0.N = Ve1 m c (Pipeline.arrRef spec0 w) :=
  (W2_arr m c w).symm
theorem hrest0 (c : Dev nD) : ∀ b, b ∉ Finset.univ.image (Pipeline.arrRef spec0) → Ve1 m c b = Ve0 m c b :=
  fun b hb => W2_of_ne m c b fun w e => hb (Finset.mem_image.mpr ⟨w, Finset.mem_univ _, e⟩)

/-- At region 1's exit: its arrays at what the pipeline leaves, every other buffer as entered. -/
def W4 (c : Dev nD) : Valuation τ sig (Elt F) :=
  Pipeline.withArrays spec1 c (W2 m c) fun w => (dat1 (Ve1 m) c).arrAt w cfg1.N
theorem W4_arr (c : Dev nD) (w : Fin cfg1.W) :
    W4 m c (Proc.devRef .tc (Pipeline.arrRef spec1 w)) = (dat1 (Ve1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
/-- Region 1's exit contents, read at the core's references. -/
abbrev V4 : (c : Dev nD) → (b : Ref sig .tc) → Buf (Elt F) ((c : Thread nD τ).loc b) := fun c b => W4 m c b
theorem hF1 (c : Dev nD) (w : Fin cfg1.W) : (dat1 (Ve1 m) c).arrAt w cfg1.N = V4 m c (Pipeline.arrRef spec1 w) :=
  (W4_arr m c w).symm
theorem hrest1 (c : Dev nD) : ∀ b, b ∉ Finset.univ.image (Pipeline.arrRef spec1) → V4 m c b = Ve1 m c b :=
  fun b hb => W4_of_ne m c b fun w e => hb (Finset.mem_image.mpr ⟨w, Finset.mem_univ _, e⟩)

/-! ### What the regions find: the arguments as launched, and h as region 0 left it -/

theorem Ve0_arg0 (c : Dev nD) : Ve0 m c main_arg0 = m ((c : Thread nD τ).loc main_arg0) := rfl
theorem Ve0_arg1 (c : Dev nD) : Ve0 m c main_arg1 = m ((c : Thread nD τ).loc main_arg1) := rfl
theorem Ve0_arg2 (c : Dev nD) : Ve0 m c main_arg2 = m ((c : Thread nD τ).loc main_arg2) := rfl
/-- Region 1 finds in h's array what region 0's write-backs left. -/
theorem Ve1_v0 (c : Dev nD) : Ve1 m c main_v0 = (dat0 (Ve0 m) c).arrAt 3 cfg0.N := W2_arr m c 3
/-- Region 0 has no window on the prototype matrix, so region 1 finds it as launched. -/
theorem Ve1_arg3 (c : Dev nD) : Ve1 m c main_arg3 = m ((c : Thread nD τ).loc main_arg3) :=
  (W2_of_ne m c main_arg3 (by decide)).trans rfl

/-! ### The arguments end as launched, and the result's array at what region 1's write-backs leave -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (Ve0 m) c).arrAt_in 0 rfl _).trans (A_eq0 (Ve0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (Ve0 m) c).arrAt_in 1 rfl _).trans (A_eq0 (Ve0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 2).trans (((dat0 (Ve0 m) c).arrAt_in 2 rfl _).trans (A_eq0 (Ve0 m) c 2))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := (W4_arr m c 1).trans (((dat1 (Ve1 m) c).arrAt_in 1 rfl _).trans (A_eq1 (Ve1 m) c 1))
    _ = W0 m c (Proc.devRef .tc main_arg3) := W2_of_ne m c main_arg3 (by decide)
    _ = m ((c : Thread nD τ).loc main_arg3) := rfl
theorem W4_main_v1 (c : Dev nD) : W4 m c (Proc.devRef .tc main_v1) = (dat1 (Ve1 m) c).arrAt 2 cfg1.N := W4_arr m c 2

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the core's generator register at some state and its
    dues, at nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the launch contents, left at W2. Its
    arrays are split out of the unscoped buffers and put back at the exit contents; the generator register goes
    into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W4. Its invariant carries the
    accumulator from point to point: it is made at the first point from the untouched rest (hin1) and gives the
    untouched rest back at the last (hout1). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order: one region per kernel call. -/
abbrev segs : List (Pipeline.Seg (pcfgs (F := F)) adm (pdats m) () defs₀ 𝒱₀ L lv) :=
  [ .region (reg0 m), .region (reg1 m) ]
/-- The program IS the run of the segments. -/
theorem main_run (c : Dev nD) : main (F := F) c = Pipeline.Seg.run (segs m) :=
  main_segs adm (pdats m) () 𝒱₀ L lv (reg0 m) (reg1 m) c

set_option backward.isDefEq.respectTransparency.types false in
/-- THE RUN: from any memory with zero counters, every weakly fair execution of the program on the cores
    terminates, nothing faulting, and in every final state the result's array holds what region 1's write-backs
    leave and the four argument arrays are as launched. -/
theorem run_full : θ_run defs (onTc (τ := τ) (main (F := F))) ⟨m, fun _ => 0, ρ⟩ (fun r => ∀ c : Dev nD,
      r.2.mem ((c.tc : Thread nD τ).loc main_v1) = (dat1 (Ve1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_main_v1 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

/-- THE FRAME: the program runs, and its argument arrays end unchanged (the run, the result's array dropped). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_full m ρ)

end Cert.Kernel.Frame

end
-- ==== Proof.Region0.lean ====
/- Region 0 of the kernel: the hidden layer h = max(x·W1ᵀ + b1, 0), computed one block of 256 rows at a time
   on a grid of 4 points. Everything here is stated at a PARAMETER V — the core's buffer contents when the
   region is entered — and for any float instance F.

   Window 0 is the block of 256 rows of x at the point; windows 1 and 2 are the whole weight matrix and the
   whole bias vector (their block index never moves, so they are fetched once and found again at every later
   point); window 3 is the block of 256 rows of h the point writes. The body reads its three inputs whole,
   and overwrites the output block whole with one payload, so what it leaves in the output buffer is a closed
   function of the three input blocks: out0_3. -/
import proofs.«171390_j89988154785962_1_alg».proof.Proof.Gen.KernelIdeal.Launch
import proofs.«171390_j89988154785962_1_alg».proof.Proof.Gen.KernelIdeal.Skeleton
import proofs.«171390_j89988154785962_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is looked at structurally, once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's current staging buffer holds its block of rows at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is fetched at the first point only; its block index is constant, so at a later point the
    buffer still holds the block fetched before, which is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the four buffers through its whole rectangle -/

abbrev r0_0 : Rect S256x1024 := Rect.unit (s := S256x1024) ![0, 0] S256x1024.size inb_S256x1024_S256x1024_0_0
abbrev r0_1 : Rect S512x1024 := Rect.unit (s := S512x1024) ![0, 0] S512x1024.size inb_S512x1024_S512x1024_0_0
abbrev r0_2 : Rect S512 := Rect.unit (s := S512) ![0] S512.size inb_S512_S512_0
abbrev r0_3 : Rect S256x512 := Rect.unit (s := S256x512) ![0, 0] S256x512.size inb_S256x512_S256x512_0_0

/-! ## What the body leaves in the output window's buffer -/

/-- The output buffer after the body, from the three input blocks: its one store, of the payload
    max(x·W1ᵀ + b1, 0) of the three loads, over the whole buffer. -/
def out0_3 (x0 : Vec F S256x1024 .f32) (x1 : Vec F S512x1024 .f32) (x2 : Vec F S512 .f32) : Vec F S256x512 .f32 :=
  View.canon [⟨r0_3, k0_pay1 (View.ld x0 r0_0) (View.ld x1 r0_1) (View.ld x2 r0_2)⟩]

/-- The one store's rectangle is the whole buffer, so it covers it. -/
theorem cover0_3 (p0 : Vec F S256x512 .f32) (y : S256x512.Idx) :
    ∃ pc ∈ ([⟨r0_3, p0⟩] : List (View.Piece (Elt F) S256x512 .f32)), y ∈ pc.1.set :=
  View.cover_of_tiled [⟨r0_3, p0⟩] S256x512.size (by rfl) y

/-! ## The body's triple -/

set_option maxHeartbeats 1000000 in
/-- The body on whole staging memrefs — the three inputs' at read contents x0, x1, x2, the output's at anything —
    runs to the continuation with the inputs' as they were and the output's at out0_3 of the inputs'. -/
theorem sound_kernel0 (c : Dev nD) (E : Set ℕ) (i : grid0.Coords)
    (arg0 : Memref sig .tc .vmem S256x1024 .f32) (harg0 : arg0.IsWhole) (arg1 : Memref sig .tc .vmem S512x1024 .f32) (harg1 : arg1.IsWhole)
    (arg2 : Memref sig .tc .vmem S512 .f32) (harg2 : arg2.IsWhole) (arg3 : Memref sig .tc .vmem S256x512 .f32) (harg3 : arg3.IsWhole)
    (x0 : Vec F S256x1024 .f32) (x1 : Vec F S512x1024 .f32) (x2 : Vec F S512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__mlp_kernel i arg0 harg0 arg1 harg1 arg2 harg2 arg3 harg3) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region on core c: the arrays as the region finds them; after the body at point t each
    input's buffer still at its block and the output's at out0_3 of the three input blocks; the invariant is the
    untouched rest (the scoped buffers of the other region and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t: the invariant, what the core owes, and the four current staging
    buffers, each at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.Region1Data.lean ====
/-
  Region 1 (the distance kernel) — its proof data.

  The grid is (row block, prototype block, feature block) = 32 × 4 × 4, walked with the feature block fastest, so point
  n has feature block n % 4. The kernel keeps a 32 × 128 accumulator between points: at feature block 0 it restarts it
  from zero, at every point it adds that point's partial sums of the Canberra terms, and at feature block 3 it stores
  the reciprocal of the shifted, clipped accumulator into the output block. So what the accumulator holds after point n
  is defined by recursion on n, and the output block after point n is a function of it.
-/
import proofs.«171390_j89988154785962_1_alg».proof.Proof.Gen.KernelIdeal.Launch
import proofs.«171390_j89988154785962_1_alg».proof.Proof.Gen.KernelIdeal.Skeleton
import proofs.«171390_j89988154785962_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at point `n`: this point's partial sums added to zero at feature block 0, and to
    what the point before left otherwise. -/
def accAt (c : Dev nD) : (n : ℕ) → n < cfg1.N → Vec F S32x128 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt c n (Nat.lt_of_succ_lt hn))

/-- At feature block 0 the accumulator restarts from zero. -/
theorem accAt_first (c : Dev nD) (t : Fin cfg1.N) (h : t.val % 4 = 0) :
    accAt V c t.val t.isLt = k1_pay2 (iblk1 V c 0 t) (iblk1 V c 1 t) k1_pay1 := by
  obtain ⟨n, hn⟩ := t
  cases n with
  | zero => rfl
  | succ n => exact if_pos h

/-- At the other feature blocks it adds to what the point before left. -/
theorem accAt_next (c : Dev nD) (t : Fin cfg1.N) (h : ¬t.val % 4 = 0) :
    accAt V c t.val t.isLt = k1_pay2 (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h
  | succ n => exact if_neg h

/-- The output block's staging buffer after the body at point `t` (stored at feature block 3 only; elsewhere nothing
    reads this value). -/
def outAt (c : Dev nD) (t : Fin cfg1.N) : Vec F S32x128 .f32 := k1_pay3 (accAt V c t.val t.isLt)

/-- The accumulator's buffer, passed to the kernel beside the windows. -/
abbrev scM : Memref sig .tc .vmem S32x128 .f32 := Memref.whole cc1_scratch0

/-- The other kernel's six staging buffers, each whole at some contents: they ride along untouched. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region's invariant before position `n`: before the first point every scoped buffer no window stages at some
    contents and the generator register at some state; afterwards the accumulator at what the point before left. -/
def PhiS (c : Dev nD) : (n : ℕ) → n ≤ cfg1.N → sProp 𝕄
  | 0, _ => Pipeline.ΦA spec1 c
  | n + 1, hn => iprop(owns (c : Thread nD τ) scM fullShare (accAt V c n hn) ∗ others c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (accAt V c n hn) ∗ others c ∗ (∃ r, prngReg c r)) := rfl

theorem PhiS_pos (c : Dev nD) (n : ℕ) (h : n ≤ cfg1.N) (hz : n ≠ 0) :
    PhiS V c n h = iprop(owns (c : Thread nD τ) scM fullShare (accAt V c (n - 1) (by omega)) ∗ others c ∗ (∃ r, prngReg c r)) := by
  cases n with
  | zero => exact absurd rfl hz
  | succ n => rfl

/-- The proof data of the region on core `c`: the arrays as the region finds them; after the body each input's buffer
    at its block and the output's at `outAt`; the invariant carrying the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt V c t := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Cert.KernelIdeal.Frame

end
-- ==== Proof.Region1Body.lean ====
/-
  Region 1 (the distance kernel) — the body at every grid point.

  Three kinds of point, by the feature block n % 4: the first (the accumulator restarts from zero), the middle ones
  (it adds to what the point before left) and the last (it adds, then the output block is stored). At each the body,
  run on whole memrefs, leaves the accumulator at `accAt` and — at the last — the output buffer at `outAt`; at the other
  points the output buffer is handed back as it was found.
-/
import proofs.«171390_j89988154785962_1_alg».proof.Proof.Region1Data
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- "The feature block is the first": the condition under which the body restarts the accumulator. -/
abbrev cond1_0 (i : grid1.Coords) : Prop := (Scalar.cmpi .ne (Scalar.extui (Scalar.cmpi .eq (BitVec.ofNat 32 (i 2).val) 0#32)) 0#32) = 1#1
/-- "The feature block is the last": the condition under which the body stores the output block. -/
abbrev cond1_1 (i : grid1.Coords) : Prop := k1_cond2 i = 1#1

/-- Both rectangles the body touches start at the origin. -/
theorem origin2 : (![0, 0] : Fin 2 → Nat) = fun _ => 0 := by
  funext a; fin_cases a <;> rfl

/-! ## The body on whole memrefs, case by case -/

set_option maxHeartbeats 2000000 in
/-- First feature block (and not the last): the accumulator, whatever it held, ends at this point's partial sums added
    to zero; the output buffer is handed back untouched. -/
theorem sound_first (c : Dev nD) (E : Set ℕ) (i : grid1.Coords) (arg3 : Memref sig .tc .vmem S32x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128 .f32) (harg6 : arg6.IsWhole)
    (hc0 : cond1_0 i) (hc1 : ¬cond1_1 i)
    (x0 : Vec F S32x128 .f32) (x1 : Vec F S128x128 .f32) (xi : Vec F S32x128 .f32) (K : PUnit → sProp 𝕄) :
    iprop(owns (c : Thread nD τ) arg3 fullShare x0 ∗ owns (c : Thread nD τ) arg4 fullShare x1 ∗ owns (c : Thread nD τ) arg5 fullShare xi ∗ (∃ xs, owns (c : Thread nD τ) arg6 fullShare xs)
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 k1_pay1)) -∗ K ⟨⟩))
      ⊢ wp frame (wpE (defs₀ (F := F)) Variants.none c none) E (cc1__dist_kernel i arg3 harg3 arg4 harg4 arg5 harg5 arg6 harg6) K := by
  simp only [cc1__dist_kernel_eq_skeleton]; unfold cc1__dist_kernel_skel
  unfold owns
  iintro ⟨⟨%f0, %hf0, H0⟩, ⟨%f1, %hf1, H1⟩, ⟨%f2, %hf2, H2⟩, ⟨%xs, %fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (View.cover_of_tiled _ S32x128.size (by rfl))]
  rw [View.canon_cons_unit_zero origin2]
  simp only [View.readAt_eq_ld, harg3.read_unread, harg4.read_unread, View.readCov_unit_zero (S := S32x128) _ origin2,
    View.ld_unit_zero (S := S32x128) origin2, View.ld_unit_zero (S := S128x128) origin2]

set_option maxHeartbeats 2000000 in
/-- A middle feature block: the accumulator ends at this point's partial sums added to what it held; the output buffer
    is handed back untouched. -/
theorem sound_middle (c : Dev nD) (E : Set ℕ) (i : grid1.Coords) (arg3 : Memref sig .tc .vmem S32x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128 .f32) (harg6 : arg6.IsWhole)
    (hc0 : ¬cond1_0 i) (hc1 : ¬cond1_1 i)
    (x0 : Vec F S32x128 .f32) (x1 : Vec F S128x128 .f32) (xi : Vec F S32x128 .f32) (xs : Vec F S32x128 .f32) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare xs
        ∗ (iprop(owns (c : Thread nD τ) arg3 fullShare x0 ∗ owns (c : Thread nD τ) arg4 fullShare x1 ∗ owns (c : Thread nD τ) arg5 fullShare xi ∗ owns (c : Thread nD τ) arg6 fullShare (k1_pay2 x0 x1 xs)) -∗ K ⟨⟩))
      ⊢ wp frame (wpE (defs₀ (F := F)) Variants.none c none) E (cc1__dist_kernel i arg3 harg3 arg4 harg4 arg5 harg5 arg6 harg6) K := by
  simp only [cc1__dist_kernel_eq_skeleton]; unfold cc1__dist_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_run_names
  rw [View.read_writes_eq_canon _ _ _ (View.cover_of_tiled _ S32x128.size (by rfl))]
  rw [View.canon_unit_zero origin2]
  simp only [View.readAt_eq_ld, harg3.read_unread, harg4.read_unread, harg6.read_unread,
    View.ld_unit_zero (S := S32x128) origin2, View.ld_unit_zero (S := S128x128) origin2]

set_option maxHeartbeats 2000000 in
/-- Last feature block (and not the first): the accumulator ends at this point's partial sums added to what it held,
    and the output buffer, whatever it held, at the reciprocal of the shifted, clipped accumulator. -/
theorem sound_last (c : Dev nD) (E : Set ℕ) (i : grid1.Coords) (arg3 : Memref sig .tc .vmem S32x128 .f32) (harg3 : arg3.IsWhole) (arg4 : Memref sig .tc .vmem S128x128 .f32) (harg4 : arg4.IsWhole) (arg5 : Memref sig .tc .vmem S32x128 .f32) (harg5 : arg5.IsWhole) (arg6 : Memref sig .tc .vmem S32x128 .f32) (harg6 : arg6.IsWhole)
    (hc0 : ¬cond1_0 i) (hc1 : cond1_1 i)
    (x0 : Vec F S32x128 .f32) (x1 : Vec F S128x128 .f32) (xs : Vec F S32x128 .f32) (K : PUnit → sProp 𝕄) :
    iprop(owns (c : Thread nD τ) arg3 fullShare x0 ∗ owns (c : Thread nD τ) arg4 fullShare x1 ∗ (∃ xi, owns (c : Thread nD τ) arg5 fullShare xi) ∗ owns (c : Thread nD τ) arg6 fullShare xs
        ∗ (iprop(owns (c : Thread nD τ) arg3 fullShare x0 ∗ owns (c : Thread nD τ) arg4 fullShare x1 ∗ owns (c : Thread nD τ) arg5 fullShare (k1_pay3 (k1_pay2 x0 x1 xs)) ∗ owns (c : Thread nD τ) arg6 fullShare (k1_pay2 x0 x1 xs)) -∗ K ⟨⟩))
      ⊢ wp frame (wpE (defs₀ (F := F)) Variants.none c none) E (cc1__dist_kernel i arg3 harg3 arg4 harg4 arg5 harg5 arg6 harg6) K := by
  simp only [cc1__dist_kernel_eq_skeleton]; unfold cc1__dist_kernel_skel
  unfold owns
  iintro ⟨⟨%f0, %hf0, H0⟩, ⟨%f1, %hf1, H1⟩, ⟨%xi, %f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [View.read_writes_eq_canon _ _ _ (View.cover_of_tiled _ S32x128.size (by rfl))]
    rw [View.canon_unit_zero origin2]
    simp only [View.readAt_eq_ld, harg3.read_unread, harg4.read_unread, harg6.read_unread, View.readCov_unit_zero (S := S32x128) _ origin2,
      View.ld_unit_zero (S := S32x128) origin2, View.ld_unit_zero (S := S128x128) origin2]
  iexists _; isplitr
  swap; · iexact HS
  ipureintro
  sl_unfold_run_names
  rw [View.read_writes_eq_canon _ _ _ (View.cover_of_tiled _ S32x128.size (by rfl))]
  rw [View.canon_unit_zero origin2]
  simp only [View.readAt_eq_ld, harg3.read_unread, harg4.read_unread, harg6.read_unread,
    View.ld_unit_zero (S := S32x128) origin2, View.ld_unit_zero (S := S128x128) origin2]

/-! ## The inputs' staging buffers hold their blocks -/

variable (V : (c : Dev nD) → (b : Ref sig .tc) → Buf (Elt F) ((c : Thread nD τ).loc b))

/-- The hidden-layer window's current buffer holds its block at every point: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The prototype window's likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The conditions in closed form, and where the output window is idle -/

/-- The feature block of point `t` is the first exactly when `t ≡ 0 (mod 4)` — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)
/-- It is the last exactly when `t ≡ 3 (mod 4)`. -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last feature block the body stores nothing into the output window, -/
theorem idleAt1_2 : ∀ t : Fin cfg1.N, ¬cond1_1 (grid1.coords t) → cfg1.idle 2 (grid1.coords t) = true := by decide +kernel
/-- and the pipeline does not write its block back; -/
theorem noFlush1_2 : ∀ t : Fin cfg1.N, ¬cond1_1 (grid1.coords t) → (cfg1.win 2).flush t = false := by decide +kernel
/-- at the last it stores. -/
theorem liveAt1_2 : ∀ t : Fin cfg1.N, cond1_1 (grid1.coords t) → cfg1.idle 2 (grid1.coords t) = false := by decide +kernel

/-! ## The invariant before the first point, spelled out -/

/-- Before the first point: the other kernel's staging buffers and the accumulator, each at some contents, and the
    generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ d, owns (c : Thread nD τ) scM fullShare d)) ∗ (∃ r, prngReg c r)) := by
  unfold Pipeline.ΦA; rw [scopedRest1_eq]; simp only [scM, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's feature block decides the case; the
    invariant hands the body the accumulator at what the point before left (at anything before the first point) and
    takes it back at this point's contents; the other scoped buffers and the generator register pass through; the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h1 : t.val % 4 = 3
  · have h0 : ¬t.val % 4 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h1)], after1_2]
    unfold outAt
    rw [accAt_next V c t h0]
    rw [PhiS_castSucc V c t, PhiS_pos V c _ _ hz]
    iintro ⟨⟨HS, Hoth, Hg⟩, Ho, ⟨%d0, H0⟩, ⟨%d1, H1⟩, ⟨%d2, H2⟩⟩
    iapply (sound_last c Set.univ (grid1.coords t) _ _ _ _ _ _ scM (Memref.isWhole_whole _) (fun h => h0 ((hcond1_0 t).mp h)) ((hcond1_1 t).mpr h1) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS]; · iexact HS
      isplitl [Hoth]; · iexact Hoth
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 4 = 0
    · rw [accAt_first V c t h0]
      by_cases hz : t.val = 0
      · rw [PhiS_castSucc V c t, PhiS_zero V c _ _ hz, PhiA1_eq]
        iintro ⟨⟨⟨Ha, Hb, Hc, Hd, He, Hf, HS⟩, Hg⟩, Ho, ⟨%d0, H0⟩, ⟨%d1, H1⟩, ⟨%d2, H2⟩⟩
        iapply (sound_first c Set.univ (grid1.coords t) _ _ _ _ _ _ scM (Memref.isWhole_whole _) ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexact HS
        iintro ⟨H0, H1, H2, HS⟩
        isplitl [HS Ha Hb Hc Hd He Hf Hg]
        · isplitl [HS]; · iexact HS
          isplitr [Hg]
          · unfold others
            isplitl [Ha]; · iexact Ha
            isplitl [Hb]; · iexact Hb
            isplitl [Hc]; · iexact Hc
            isplitl [Hd]; · iexact Hd
            isplitl [He]; · iexact He
            iexact Hf
          iexact Hg
        isplitl [Ho]; · iexact Ho
        isplitl [H0]; · iexact H0
        isplitl [H1]; · iexact H1
        iexists _; iexact H2
      · rw [PhiS_castSucc V c t, PhiS_pos V c _ _ hz]
        iintro ⟨⟨HS, Hoth, Hg⟩, Ho, ⟨%d0, H0⟩, ⟨%d1, H1⟩, ⟨%d2, H2⟩⟩
        iapply (sound_first c Set.univ (grid1.coords t) _ _ _ _ _ _ scM (Memref.isWhole_whole _) ((hcond1_0 t).mpr h0) (fun h => h1 ((hcond1_1 t).mp h)) (iblk1 V c 0 t) (iblk1 V c 1 t) _ _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS]; · iexact HS
          isplitl [Hoth]; · iexact Hoth
          iexact Hg
        isplitl [Ho]; · iexact Ho
        isplitl [H0]; · iexact H0
        isplitl [H1]; · iexact H1
        iexists _; iexact H2
    · have hz : t.val ≠ 0 := by omega
      rw [accAt_next V c t h0]
      rw [PhiS_castSucc V c t, PhiS_pos V c _ _ hz]
      iintro ⟨⟨HS, Hoth, Hg⟩, Ho, ⟨%d0, H0⟩, ⟨%d1, H1⟩, ⟨%d2, H2⟩⟩
      iapply (sound_middle c Set.univ (grid1.coords t) _ _ _ _ _ _ scM (Memref.isWhole_whole _) (fun h => h0 ((hcond1_0 t).mp h)) (fun h => h1 ((hcond1_1 t).mp h)) (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's form back: the accumulator's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold others
  iintro ⟨HS, ⟨Ha, Hb, Hc, Hd, He, Hf⟩, Hg⟩
  isplitr [Hg]
  · isplitl [Ha]; · iexact Ha
    isplitl [Hb]; · iexact Hb
    isplitl [Hc]; · iexact Hc
    isplitl [Hd]; · iexact Hd
    isplitl [He]; · iexact He
    isplitl [Hf]; · iexact Hf
    iexists _; iexact HS
  iexact Hg

/-- The same after the last point. -/
theorem hout1 (c : Dev nD) : (dat1 V c).Φ (Fin.last cfg1.N) ⊢ Pipeline.ΦA spec1 c :=
  Phi_out V c _ (by rw [Fin.val_last]; have : cfg1.N = 512 := N_1; omega)

end Cert.KernelIdeal.Frame

end
-- ==== Proof.Run.lean ====
/- The run of the whole program: the two kernel regions one after the other, from the launch to the return.

   The program has no host operation: it enters region 0 (the hidden layer) from the launch memory, and region 1
   (the distances) from what region 0 leaves. So the buffer contents at the three boundaries are: the launch
   memory; the same with region 0's output array h at what its write-backs leave; and that with region 1's output
   array at what ITS write-backs leave. Every argument array is read by a region only through an input window (or
   is no window of it at all), so it walks back through the boundaries to its launch contents. -/
import proofs.«171390_j89988154785962_1_alg».proof.Proof.Region0
import proofs.«171390_j89988154785962_1_alg».proof.Proof.Region1Data
import proofs.«171390_j89988154785962_1_alg».proof.Proof.Region1Body

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- Region 0's entry contents: the launch memory, read at the core's references. -/
abbrev Ve0 : (c : Dev nD) → (b : Ref sig .tc) → Buf (Elt F) ((c : Thread nD τ).loc b) := fun c b => W0 m c b
/-- At region 0's exit: its arrays at what the pipeline leaves (the inputs as entered, the output's write-backs
    folded), every other buffer as entered. -/
def W2 (c : Dev nD) : Valuation τ sig (Elt F) :=
  Pipeline.withArrays spec0 c (W0 m c) fun w => (dat0 (Ve0 m) c).arrAt w cfg0.N
theorem W2_arr (c : Dev nD) (w : Fin cfg0.W) :
    W2 m c (Proc.devRef .tc (Pipeline.arrRef spec0 w)) = (dat0 (Ve0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- Region 1's entry contents: what region 0 leaves (nothing runs between the two). -/
abbrev Ve1 : (c : Dev nD) → (b : Ref sig .tc) → Buf (Elt F) ((c : Thread nD τ).loc b) := fun c b => W2 m c b
theorem hF0 (c : Dev nD) (w : Fin cfg0.W) : (dat0 (Ve0 m) c).arrAt w cfg0.N = Ve1 m c (Pipeline.arrRef spec0 w) :=
  (W2_arr m c w).symm
theorem hrest0 (c : Dev nD) : ∀ b, b ∉ Finset.univ.image (Pipeline.arrRef spec0) → Ve1 m c b = Ve0 m c b :=
  fun b hb => W2_of_ne m c b fun w e => hb (Finset.mem_image.mpr ⟨w, Finset.mem_univ _, e⟩)

/-- At region 1's exit: its arrays at what the pipeline leaves, every other buffer as entered. -/
def W4 (c : Dev nD) : Valuation τ sig (Elt F) :=
  Pipeline.withArrays spec1 c (W2 m c) fun w => (dat1 (Ve1 m) c).arrAt w cfg1.N
theorem W4_arr (c : Dev nD) (w : Fin cfg1.W) :
    W4 m c (Proc.devRef .tc (Pipeline.arrRef spec1 w)) = (dat1 (Ve1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
/-- Region 1's exit contents, read at the core's references. -/
abbrev V4 : (c : Dev nD) → (b : Ref sig .tc) → Buf (Elt F) ((c : Thread nD τ).loc b) := fun c b => W4 m c b
theorem hF1 (c : Dev nD) (w : Fin cfg1.W) : (dat1 (Ve1 m) c).arrAt w cfg1.N = V4 m c (Pipeline.arrRef spec1 w) :=
  (W4_arr m c w).symm
theorem hrest1 (c : Dev nD) : ∀ b, b ∉ Finset.univ.image (Pipeline.arrRef spec1) → V4 m c b = Ve1 m c b :=
  fun b hb => W4_of_ne m c b fun w e => hb (Finset.mem_image.mpr ⟨w, Finset.mem_univ _, e⟩)

/-! ### What the regions find: the arguments as launched, and h as region 0 left it -/

theorem Ve0_arg0 (c : Dev nD) : Ve0 m c main_arg0 = m ((c : Thread nD τ).loc main_arg0) := rfl
theorem Ve0_arg1 (c : Dev nD) : Ve0 m c main_arg1 = m ((c : Thread nD τ).loc main_arg1) := rfl
theorem Ve0_arg2 (c : Dev nD) : Ve0 m c main_arg2 = m ((c : Thread nD τ).loc main_arg2) := rfl
/-- Region 1 finds in h's array what region 0's write-backs left. -/
theorem Ve1_v0 (c : Dev nD) : Ve1 m c main_v0 = (dat0 (Ve0 m) c).arrAt 3 cfg0.N := W2_arr m c 3
/-- Region 0 has no window on the prototype matrix, so region 1 finds it as launched. -/
theorem Ve1_arg3 (c : Dev nD) : Ve1 m c main_arg3 = m ((c : Thread nD τ).loc main_arg3) :=
  (W2_of_ne m c main_arg3 (by decide)).trans rfl

/-! ### The arguments end as launched, and the result's array at what region 1's write-backs leave -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (Ve0 m) c).arrAt_in 0 rfl _).trans (A_eq0 (Ve0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (Ve0 m) c).arrAt_in 1 rfl _).trans (A_eq0 (Ve0 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 2).trans (((dat0 (Ve0 m) c).arrAt_in 2 rfl _).trans (A_eq0 (Ve0 m) c 2))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := (W4_arr m c 1).trans (((dat1 (Ve1 m) c).arrAt_in 1 rfl _).trans (A_eq1 (Ve1 m) c 1))
    _ = W0 m c (Proc.devRef .tc main_arg3) := W2_of_ne m c main_arg3 (by decide)
    _ = m ((c : Thread nD τ).loc main_arg3) := rfl
theorem W4_main_v1 (c : Dev nD) : W4 m c (Proc.devRef .tc main_v1) = (dat1 (Ve1 m) c).arrAt 2 cfg1.N := W4_arr m c 2

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
/-- No core owes another anything. -/
abbrev L : GSem nD τ sig → Finset Unit := fun _ => ∅
abbrev lv : GSem nD τ sig → Unit → ℕ := fun _ _ => 0
/-- What rides beside the buffers through both regions: the core's generator register at some state and its
    dues, at nothing. -/
abbrev R (c : Dev nD) : sProp 𝕄 := iprop((∃ r, prngReg c r) ∗ ∃ W, owes (c : Thread nD τ) (0 : CellTallies nD τ sig Unit) W)
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the launch contents, left at W2. Its
    arrays are split out of the unscoped buffers and put back at the exit contents; the generator register goes
    into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W4. Its invariant carries the
    accumulator from point to point: it is made at the first point from the untouched rest (hin1) and gives the
    untouched rest back at the last (hout1). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (Ve1 m) c)
    unfold Pipeline.ΦA
    iintro ⟨Hp, -, Hr⟩
    isplitl [Hr]; · iexact Hr
    iexact Hp
  hout c := by
    rw [Pipeline.ownSems0_none]
    refine (hout1 (Ve1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's two segments in order: one region per kernel call. -/
abbrev segs : List (Pipeline.Seg (pcfgs (F := F)) adm (pdats m) () defs₀ 𝒱₀ L lv) :=
  [ .region (reg0 m), .region (reg1 m) ]
/-- The program IS the run of the segments. -/
theorem main_run (c : Dev nD) : main (F := F) c = Pipeline.Seg.run (segs m) :=
  main_segs adm (pdats m) () 𝒱₀ L lv (reg0 m) (reg1 m) c

set_option backward.isDefEq.respectTransparency.types false in
/-- THE RUN: from any memory with zero counters, every weakly fair execution of the program on the cores
    terminates, nothing faulting, and in every final state the result's array holds what region 1's write-backs
    leave and the four argument arrays are as launched. -/
theorem run_full : θ_run defs (onTc (τ := τ) (main (F := F))) ⟨m, fun _ => 0, ρ⟩ (fun r => ∀ c : Dev nD,
      r.2.mem ((c.tc : Thread nD τ).loc main_v1) = (dat1 (Ve1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_main_v1 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

/-- THE FRAME: the program runs, and its argument arrays end unchanged (the run, the result's array dropped). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_full m ρ)

end Cert.KernelIdeal.Frame

end
-- ==== Proof.Spec.lean ====
/-
  The mathematics both programs compute, stated once over the extended reals.

  Inputs: x [1024,1024], w [512,1024], b [512], wd [512,512].
  Hidden layer: hid p q = max (Σ_d x[p,d]·w[q,d] + b[q]) 0.
  Canberra distance of hidden row p to prototype row o:
    dist p o = Σ_k |h[p,k] − wd[o,k]| / den(|h[p,k]| + |wd[o,k]|),  den(s) = ε if s < ε else s.
  Similarity: the reciprocal of the distance shifted by ε and clipped to [ε, 10⁶] — written
  as a quotient 1 / z on one side and as the power z^(−1) on the other; the clipped value is a positive real,
  where the two agree.
-/
import Idealize.ShloMosaic.PureOps.Ideal
import Idealize.ShloMosaic.PureOps.Ideal.Laws
import Idealize.ShloMosaic.Lib.ValueIdx

noncomputable section

namespace Cert.Canberra

open Idealize.ShloMosaic Idealize.ShloMosaic.ValueIdx

/-- x : [1024, 1024]. -/
abbrev SX : Shape := ⟨2, ![1024, 1024]⟩
/-- w : [512, 1024]. -/
abbrev SW : Shape := ⟨2, ![512, 1024]⟩
/-- b : [512]. -/
abbrev SB : Shape := ⟨1, ![512]⟩
/-- wd : [512, 512]. -/
abbrev SD : Shape := ⟨2, ![512, 512]⟩
/-- The hidden layer and the result : [1024, 512]. -/
abbrev SH : Shape := ⟨2, ![1024, 512]⟩

/-- ε, the f32 nearest 1e-8, as an exact real. -/
def eps : EReal := Ideal.ofBits .f32 0x322BCC77#32
/-- The upper clip bound 10⁶. -/
def cap : EReal := Ideal.ofBits .f32 0x49742400#32

/-- Hidden entry (p, q): the affine map followed by the positive part. -/
def hid (x : SX.Idx → EReal) (w : SW.Idx → EReal) (b : SB.Idx → EReal) (p : Fin 1024) (q : Fin 512) : EReal :=
  max ((∑ d : Fin 1024, x (ix2 p d) * w (ix2 q d)) + b (ix1 q)) 0

/-- The hidden layer as an array. -/
def hidA (x : SX.Idx → EReal) (w : SW.Idx → EReal) (b : SB.Idx → EReal) : SH.Idx → EReal :=
  fun i => hid x w b (i 0) (i 1)

/-- One Canberra term: |h − v| over the guarded sum of magnitudes. -/
def term (h v : EReal) : EReal :=
  Ideal.div (max (h - v) (-(h - v)))
    (Scalar.select (Ideal.cmp .olt (max h (-h) + max v (-v)) eps) eps (max h (-h) + max v (-v)))

/-- The Canberra distance of hidden row p to prototype row o. -/
def dist (hA : SH.Idx → EReal) (wd : SD.Idx → EReal) (p : Fin 1024) (o : Fin 512) : EReal :=
  ∑ k : Fin 512, term (hA (ix2 p k)) (wd (ix2 o k))

/-- The distance shifted by ε and clipped to [ε, 10⁶]. -/
def clip (s : EReal) : EReal := min cap (max eps (s + eps))

/-- The similarity as the quotient 1 / clip s. -/
def simQ (s : EReal) : EReal := Ideal.div (Ideal.ofBits .f32 0x3F800000#32) (clip s)

/-- The similarity as the power (clip s)^(−1). -/
def simP (s : EReal) : EReal := Ideal.pow (clip s) (Ideal.ofBits .f32 0xBF800000#32)

/-- The whole computation, with the similarity as a power. -/
def G (x : SX.Idx → EReal) (w : SW.Idx → EReal) (b : SB.Idx → EReal) (wd : SD.Idx → EReal) : SH.Idx → EReal :=
  fun i => simP (dist (hidA x w b) wd (i 0) (i 1))

/-- The second stage alone with the similarity as a quotient: what a blocked accumulation of the distance followed by
    the reciprocal computes from a hidden array. -/
def simArr (hA : SH.Idx → EReal) (wd : SD.Idx → EReal) : SH.Idx → EReal :=
  fun i => simQ (dist hA wd (i 0) (i 1))

end Cert.Canberra

end
-- ==== Proof.Pay0.lean ====
/-
  The first stage's stored value at an index.

  The body of the first region loads a block of 256 rows of x, all of w and b, and stores
  max (x·wᵀ + b, 0). Read at row p and column q of the block this is the positive part of
  Σ_d x[p,d]·w[q,d] + b[q]: the changes of float format are the identity on extended reals, the
  matrix product into a zero accumulator is the plain sum over the one contracted axis, and the
  bias, cast to one row and laid along every row, is read at its column.
-/
import proofs.«171390_j89988154785962_1_alg».proof.Proof.Gen.KernelIdeal.Skeleton
import proofs.«171390_j89988154785962_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Frame

open Cert.KernelIdeal Cert.KernelIdeal.Gen Idealize.ShloMosaic Idealize.ShloMosaic.ValueIdx

/-- The left operand's row coordinate at output index i is i's row. -/
theorem dot0_lhs_0 (i : S256x512.Idx) (k : dot_S256x1024_S512x1024_S256x512_1_1_0_0_n_n.contr.Idx) :
    (dot_S256x1024_S512x1024_S256x512_1_1_0_0_n_n.lhsIdx i k 0).val = (i 0).val := by
  unfold DotDims.lhsIdx
  rw [dif_neg (show ¬(0 : Fin S256x1024.rank) ∈ dot_S256x1024_S512x1024_S256x512_1_1_0_0_n_n.lhsBatch by decide),
    dif_pos (show (0 : Fin S256x1024.rank) ∈ dot_S256x1024_S512x1024_S256x512_1_1_0_0_n_n.lhsNonContracting by decide)]
  rfl

/-- The left operand's column coordinate is the contraction index. -/
theorem dot0_lhs_1 (i : S256x512.Idx) (k : dot_S256x1024_S512x1024_S256x512_1_1_0_0_n_n.contr.Idx) :
    (dot_S256x1024_S512x1024_S256x512_1_1_0_0_n_n.lhsIdx i k 1).val = (k ⟨0, by decide⟩).val :=
  dot_S256x1024_S512x1024_S256x512_1_1_0_0_n_n.lhsIdx_val_of_single rfl i k

/-- The right operand's row coordinate at output index i is i's column. -/
theorem dot0_rhs_0 (i : S256x512.Idx) (k : dot_S256x1024_S512x1024_S256x512_1_1_0_0_n_n.contr.Idx) :
    (dot_S256x1024_S512x1024_S256x512_1_1_0_0_n_n.rhsIdx i k 0).val = (i 1).val := by
  unfold DotDims.rhsIdx
  rw [dif_neg (show ¬(0 : Fin S512x1024.rank) ∈ dot_S256x1024_S512x1024_S256x512_1_1_0_0_n_n.rhsBatch by decide),
    dif_pos (show (0 : Fin S512x1024.rank) ∈ dot_S256x1024_S512x1024_S256x512_1_1_0_0_n_n.rhsNonContracting by decide)]
  rfl

/-- The right operand's column coordinate is the contraction index. -/
theorem dot0_rhs_1 (i : S256x512.Idx) (k : dot_S256x1024_S512x1024_S256x512_1_1_0_0_n_n.contr.Idx) :
    (dot_S256x1024_S512x1024_S256x512_1_1_0_0_n_n.rhsIdx i k 1).val = (k ⟨0, by decide⟩).val :=
  dot_S256x1024_S512x1024_S256x512_1_1_0_0_n_n.rhsIdx_val_of_single rfl i k

/-- The matrix product into the zero accumulator at (p, q): the sum over the contracted axis of
    the products of row p of the left operand and row q of the right one. -/
theorem matmul0_apply (a : FVec Ideal S256x1024 .bf16) (b : FVec Ideal S512x1024 .bf16) (p : Fin 256) (q : Fin 512) :
    matmul dot_S256x1024_S512x1024_S256x512_1_1_0_0_n_n none a b (constant S256x512 .f32 0x00000000#32) (ix2 p q)
      = ∑ d : Fin 1024, a (ix2 p d) * b (ix2 q d) := by
  refine (Ideal.matmul_constant_zero_apply dot_S256x1024_S512x1024_S256x512_1_1_0_0_n_n none a b (ix2 p q)).trans ?_
  rw [← Equiv.sum_comp (contrEquiv1 dot_S256x1024_S512x1024_S256x512_1_1_0_0_n_n 1024 rfl rfl).symm]
  refine Finset.sum_congr rfl fun k _ => ?_
  have hk := contrEquiv1_symm_val dot_S256x1024_S512x1024_S256x512_1_1_0_0_n_n 1024 rfl rfl k
  have el : dot_S256x1024_S512x1024_S256x512_1_1_0_0_n_n.lhsIdx (ix2 p q)
      ((contrEquiv1 dot_S256x1024_S512x1024_S256x512_1_1_0_0_n_n 1024 rfl rfl).symm k) = ix2 p k :=
    funext fun a => Fin.ext (by
      match a with
      | ⟨0, _⟩ => exact dot0_lhs_0 _ _
      | ⟨1, _⟩ => exact (dot0_lhs_1 _ _).trans hk)
  have er : dot_S256x1024_S512x1024_S256x512_1_1_0_0_n_n.rhsIdx (ix2 p q)
      ((contrEquiv1 dot_S256x1024_S512x1024_S256x512_1_1_0_0_n_n 1024 rfl rfl).symm k) = ix2 q k :=
    funext fun a => Fin.ext (by
      match a with
      | ⟨0, _⟩ => exact dot0_rhs_0 _ _
      | ⟨1, _⟩ => exact (dot0_rhs_1 _ _).trans hk)
  rw [el, er]

/-- The bias cast to one row and laid along all 256 rows, read at (p, q), is b[q]. -/
theorem bias0_apply (v5 : Vec Ideal S512 .f32) (p : Fin 256) (q : Fin 512) :
    broadcastTo S256x512 (shapeCast S1x512 v5 shapeCasts_S512_S1x512) broadcasts_S1x512_S256x512 (ix2 p q)
      = v5 (ix1 q) :=
  (broadcastTo_1b_ab_apply (shapeCast S1x512 v5 shapeCasts_S512_S1x512) broadcasts_S1x512_S256x512 p q).trans
    (shapeCast_a_1a_apply v5 shapeCasts_S512_S1x512 (0 : Fin 1) q)

/-- The stored value at row p and column q of the block: the positive part of the affine map. -/
theorem pay0_apply (v0 : Vec Ideal S256x1024 .f32) (v2 : Vec Ideal S512x1024 .f32) (v5 : Vec Ideal S512 .f32)
    (p : Fin 256) (q : Fin 512) :
    k0_pay1 (F := Ideal) v0 v2 v5 (ix2 p q)
      = max ((∑ d : Fin 1024, v0 (ix2 p d) * v2 (ix2 q d)) + v5 (ix1 q)) 0 := by
  unfold Gen.k0_pay1
  refine (maximumf_apply _ _ (ix2 p q)).trans ?_
  refine congrArg₂ max ?_ ?_
  · refine (addf_apply _ _ (ix2 p q)).trans ?_
    refine congrArg₂ (· + ·) ?_ ?_
    · exact matmul0_apply _ _ p q
    · exact bias0_apply v5 p q
  · exact Ideal.ofBits_zero_f32

end Cert.KernelIdeal.Frame

end
-- ==== Proof.Value0.lean ====
/-
  The first stage's result array.

  The first region writes the hidden layer one block of 256 rows at a time: point t of its four
  points stores, into rows 256·t … 256·t + 255 of the result, the positive part of the affine map
  of the same rows of x, all of w and b. Here the array after all four write-backs is read as one
  function of the three arguments as the region finds them: each written block is the block of
  that function (the input block of x is the same rows of x; w and b are whole), and the four
  blocks cover every row (row r lies in the block of point r / 256).
-/
import proofs.«171390_j89988154785962_1_alg».proof.Proof.Region0
import proofs.«171390_j89988154785962_1_alg».proof.Proof.Pay0
import Idealize.ShloMosaic.Lib.Pipeline.Value

noncomputable section

namespace Cert.KernelIdeal.Frame

open Cert.KernelIdeal Cert.KernelIdeal.Gen
open Idealize.ShloMosaic Idealize.ShloMosaic.TcCoe Idealize.SL.Sem Idealize.ShloMosaic.ValueIdx
open Idealize.ShloMosaic.Pipeline (Dat)
open Cert.Canberra (hid hidA)

theorem zero_off2 : (![0, 0] : Fin 2 → Nat) = fun _ => 0 := funext fun a => by fin_cases a <;> rfl
theorem zero_off1 : (![0] : Fin 1 → Nat) = fun _ => 0 := funext fun a => by fin_cases a <;> rfl

/-- What the body leaves in the output block, at row p and column q, from the three input blocks. -/
theorem out0_3_apply (x0 : Vec Ideal S256x1024 .f32) (x1 : Vec Ideal S512x1024 .f32) (x2 : Vec Ideal S512 .f32)
    (p : Fin 256) (q : Fin 512) :
    out0_3 (F := Ideal) x0 x1 x2 (ix2 p q)
      = max ((∑ d : Fin 1024, x0 (ix2 p d) * x1 (ix2 q d)) + x2 (ix1 q)) 0 := by
  unfold out0_3
  rw [View.canon_unit_zero zero_off2]
  simp only [View.ld_unit_zero (S := S256x1024) zero_off2, View.ld_unit_zero (S := S512x1024) zero_off2,
    View.ld_unit_zero (S := S512) zero_off1]
  exact pay0_apply x0 x1 x2 p q

/-- The printed index maps over the grid: the x block and the output block sit at block row t, column 0;
    w and b never move. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- The x window's block at point t, at row p and column d, is x at row 256·t + p and column d. -/
theorem iblk0_0_apply (c : Dev nD) (t : Fin cfg0.N) (p : Fin 256) (d : Fin 1024) (P : Fin 1024)
    (hP : P.val = 256 * t.val + p.val) :
    (iblk0 V c 0 t : Vec Ideal S256x1024 .f32) (ix2 p d) = (V c main_arg0 : S1024x1024.Idx → EReal) (ix2 P d) := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 256 + 1 * p.val = P.val; rw [e0, hP]; omega
  | ⟨1, _⟩ => show win0_0.index t (1 : Fin 2) * 1024 + 1 * d.val = d.val; rw [e1]; omega

/-- The w window's block at any point is w. -/
theorem iblk0_1_apply (c : Dev nD) (t : Fin cfg0.N) (q : Fin 512) (d : Fin 1024) :
    (iblk0 V c 1 t : Vec Ideal S512x1024 .f32) (ix2 q d) = (V c main_arg1 : S512x1024.Idx → EReal) (ix2 q d) := by
  obtain ⟨-, -, e0, e1, -⟩ := index_facts0 t
  unfold iblk0
  rw [View.read_apply]
  show V c main_arg1 _ = V c main_arg1 _
  congr 1
  funext a
  apply Fin.ext
  match a with
  | ⟨0, _⟩ => show win0_1.index t (0 : Fin 2) * 512 + 1 * q.val = q.val; rw [e0]; omega
  | ⟨1, _⟩ => show win0_1.index t (1 : Fin 2) * 1024 + 1 * d.val = d.val; rw [e1]; omega

/-- The b window's block at any point is b. -/
theorem iblk0_2_apply (c : Dev nD) (t : Fin cfg0.N) (q : Fin 512) :
    (iblk0 V c 2 t : Vec Ideal S512 .f32) (ix1 q) = (V c main_arg2 : S512.Idx → EReal) (ix1 q) := by
  obtain ⟨-, -, -, -, e0, -⟩ := index_facts0 t
  unfold iblk0
  rw [View.read_apply]
  show V c main_arg2 _ = V c main_arg2 _
  congr 1
  funext a
  apply Fin.ext
  match a with
  | ⟨0, _⟩ => show win0_2.index t (0 : Fin 1) * 512 + 1 * q.val = q.val; rw [e0]; omega

end

section
variable (V : (c : Dev nD) → (b : Ref sig .tc) → Buf (Elt Ideal) ((c : Thread nD τ).loc b))

/-- What point t writes back is block t of the hidden layer of the three arguments as the region finds them. -/
theorem flushed0_eq (c : Dev nD) (t : Fin cfg0.N) :
    (dat0 (F := Ideal) V c).flushed 3 t
      = ((cfg0.win 3).blk t).view.read (Elt Ideal) (hidA (V c main_arg0) (V c main_arg1) (V c main_arg2)) := by
  show (cfg0.win 3).cut (grid0.coords t) ((dat0 V c).after 3 t) = _
  rw [after0_3]
  funext y
  obtain ⟨p, q, rfl⟩ : ∃ (p : Fin 256) (q : Fin 512), y = ix2 p q := ⟨y 0, y 1, eq_ix2 (n0 := 256) (n1 := 512) y⟩
  rw [View.read_apply]
  obtain ⟨-, -, -, -, -, e0, e1⟩ := index_facts0 t
  have ht : t.val < 4 := t.isLt
  have hemb : ((cfg0.win 3).blk t).view.emb (ix2 p q)
      = (ix2 (⟨256 * t.val + p.val, by omega⟩ : Fin 1024) q : S1024x512.Idx) := by
    funext a
    apply Fin.ext
    match a with
    | ⟨0, _⟩ => show win0_3.index t (0 : Fin 2) * 256 + 1 * p.val = 256 * t.val + p.val; rw [e0]; omega
    | ⟨1, _⟩ => show win0_3.index t (1 : Fin 2) * 512 + 1 * q.val = q.val; rw [e1]; omega
  rw [hemb]
  show out0_3 (iblk0 V c 0 t) (iblk0 V c 1 t) (iblk0 V c 2 t) (ix2 p q)
    = hid (V c main_arg0) (V c main_arg1) (V c main_arg2) (⟨256 * t.val + p.val, by omega⟩ : Fin 1024) q
  refine (out0_3_apply _ _ _ p q).trans ?_
  unfold hid
  refine congrArg₂ max (congrArg₂ (· + ·) (Finset.sum_congr rfl fun d _ => ?_) ?_) rfl
  · exact congrArg₂ (· * ·) (iblk0_0_apply V c t p d _ rfl) (iblk0_1_apply V c t q d)
  · exact iblk0_2_apply V c t q

/-- An index of the result is in point t's block iff each coordinate is in the block's range on its axis. -/
theorem mem_blk0 (t : Fin cfg0.N) (i : S1024x512.Idx) :
    i ∈ ((cfg0.win 3).blk t).view.set
      ↔ ∀ a : Fin 2, win0_3.index t a * S256x512.size a ≤ (i a).val
          ∧ (i a).val < win0_3.index t a * S256x512.size a + S256x512.size a := by
  show i ∈ ((View.whole main_v0).slice (win0_3.rect t)).set ↔ _
  rw [View.set_slice_whole, Rect.mem_set_unit]
  exact Iff.rfl

/-- Every index of the result is in some point's block: row r is in the block of point r / 256. -/
theorem covered0 (i : S1024x512.Idx) :
    ∃ t : Fin cfg0.N, (cfg0.win 3).flush t = true ∧ i ∈ ((cfg0.win 3).blk t).view.set := by
  have hi0 : (i 0).val < 1024 := (i 0).isLt
  have hi1 : (i 1).val < 512 := (i 1).isLt
  have hN : cfg0.N = 4 := N_0
  refine ⟨⟨(i 0).val / 256, by rw [hN]; omega⟩, flush0_3 _, ?_⟩
  rw [mem_blk0]
  obtain ⟨-, -, -, -, -, e0, e1⟩ := index_facts0 ⟨(i 0).val / 256, by rw [hN]; omega⟩
  intro a
  match a with
  | ⟨0, _⟩ =>
    show win0_3.index _ (0 : Fin 2) * 256 ≤ (i 0).val ∧ (i 0).val < win0_3.index _ (0 : Fin 2) * 256 + 256
    rw [e0]; show (i 0).val / 256 * 256 ≤ (i 0).val ∧ (i 0).val < (i 0).val / 256 * 256 + 256; omega
  | ⟨1, _⟩ =>
    show win0_3.index _ (1 : Fin 2) * 512 ≤ (i 1).val ∧ (i 1).val < win0_3.index _ (1 : Fin 2) * 512 + 512
    rw [e1]; omega

/-- The result array after all four write-backs is the hidden layer of the region-entry contents of x, w and b. -/
theorem final0 (c : Dev nD) :
    (dat0 (F := Ideal) V c).arrAt 3 cfg0.N = hidA (V c main_arg0) (V c main_arg1) (V c main_arg2) :=
  (dat0 (F := Ideal) V c).arrAt_eq_of_cover 3 (hidA (V c main_arg0) (V c main_arg1) (V c main_arg2))
    (fun t _ => flushed0_eq V c t) covered0

end

end Cert.KernelIdeal.Frame

end
-- ==== Proof.Pay1.lean ====
/-
  The second stage's three stored values, each read at one entry.

  The body of the distance region stores three things. At the first feature block it stores zeros into the
  accumulator. At every point it stores the accumulator plus, for row r of the hidden block and row o of the
  prototype block, the sum over the block's 128 features k of the Canberra term of h[r,k] and wd[o,k]: the two
  blocks are laid out as [32,1,128] and [1,128,128], spread over [32,128,128], combined entry by entry, and summed
  along the last axis. At the last feature block it stores the reciprocal of the accumulator shifted by ε and
  clipped to [ε, 10⁶].
-/
import proofs.«171390_j89988154785962_1_alg».proof.Proof.Gen.KernelIdeal.Skeleton
import proofs.«171390_j89988154785962_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Frame

open Cert.KernelIdeal Cert.KernelIdeal.Gen Idealize.ShloMosaic Idealize.ShloMosaic.ValueIdx Cert.Canberra

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array spread to `[a, n, b]` reads, at `(i, o, j)`, the operand at `(i, 0, j)`. -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (o : Fin n) (j : Fin b) :
    broadcastTo ⟨3, ![a, n, b]⟩ v h (ix3 i o j) = v (ix3 i (0 : Fin 1) j) := by
  refine broadcastTo_apply v h (ix3 i o j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, n, b]` array spread to `[a, n, b]` reads, at `(i, o, j)`, the operand at `(0, o, j)`. -/
theorem broadcastTo_1nb_anb_apply {a n b : ℕ} (v : (⟨3, ![1, n, b]⟩ : Shape).Idx → α)
    (h : (⟨3, ![1, n, b]⟩ : Shape).Broadcasts ⟨3, ![a, n, b]⟩) (i : Fin a) (o : Fin n) (j : Fin b) :
    broadcastTo ⟨3, ![a, n, b]⟩ v h (ix3 i o j) = v (ix3 (0 : Fin 1) o j) := by
  refine broadcastTo_apply v h (ix3 i o j) (ix3 (0 : Fin 1) o j) fun ax => ?_
  match ax with
  | ⟨0, _⟩ => rfl
  | ⟨1, _⟩ =>
    show o.val = if n = 1 then 0 else o.val
    split
    · have := o.isLt; omega
    · rfl
  | ⟨2, _⟩ =>
    show j.val = if b = 1 then 0 else j.val
    split
    · have := j.isLt; omega
    · rfl

end Layout

/-- The hidden block laid out as [32,1,128] and spread over the 128 prototype rows reads h[r,k] at (r, o, k). -/
theorem spreadRow_apply (x : FVec Ideal S32x1x128 .f32) (r : Fin 32) (o : Fin 128) (k : Fin 128) :
    broadcastTo S32x128x128 x broadcasts_S32x1x128_S32x128x128 (ix3 r o k) = x (ix3 r (0 : Fin 1) k) :=
  broadcastTo_a1b_anb_apply x broadcasts_S32x1x128_S32x128x128 r o k

/-- The prototype block laid out as [1,128,128] and spread over the 32 hidden rows reads wd[o,k] at (r, o, k). -/
theorem spreadProto_apply (x : FVec Ideal S1x128x128 .f32) (r : Fin 32) (o : Fin 128) (k : Fin 128) :
    broadcastTo S32x128x128 x broadcasts_S1x128x128_S32x128x128 (ix3 r o k) = x (ix3 (0 : Fin 1) o k) :=
  broadcastTo_1nb_anb_apply x broadcasts_S1x128x128_S32x128x128 r o k

/-- The hidden block cast to [32,1,128] reads h[r,k] at (r, 0, k). -/
theorem rowCast_apply (v3 : FVec Ideal S32x128 .f32) (r : Fin 32) (k : Fin 128) :
    shapeCast S32x1x128 (shapeCast S32x128 v3 shapeCasts_S32x128_S32x128) shapeCasts_S32x128_S32x1x128
      (ix3 r (0 : Fin 1) k) = v3 (ix2 r k) :=
  (shapeCast_ab_a1b_apply _ shapeCasts_S32x128_S32x1x128 r (0 : Fin 1) k).trans
    (congrFun (shapeCast_self v3 shapeCasts_S32x128_S32x128) (ix2 r k))

/-- The prototype block cast to [1,128,128] reads wd[o,k] at (0, o, k). -/
theorem protoCast_apply (v6 : FVec Ideal S128x128 .f32) (o : Fin 128) (k : Fin 128) :
    shapeCast S1x128x128 v6 shapeCasts_S128x128_S1x128x128 (ix3 (0 : Fin 1) o k) = v6 (ix2 o k) :=
  shapeCast_ab_1ab_apply v6 shapeCasts_S128x128_S1x128x128 (0 : Fin 1) o k

/-- The sum along the last axis of a [32,128,128] array, read at (r, o), is the sum over k of its entries (r, o, k). -/
theorem laneSum_apply (src : FVec Ideal S32x128x128 .f32) (hφ : FKind.Formats .f32)
    (hacc : (0x00000000#32 : BitVec 32) = 0x00000000#32) (r : Fin 32) (o : Fin 128) :
    multiReduction .add [2] S32x128 src 0x00000000#32 reduces_S32x128x128_S32x128 hφ hacc (ix2 r o)
      = ∑ k : Fin 128, src (ix3 r o k) := by
  refine (Ideal.multiReduction_add_single src 0x00000000#32 reduces_S32x128x128_S32x128 hφ hacc (ix2 r o)).trans ?_
  refine Finset.sum_congr rfl fun k _ => congrArg src (funext fun a => Fin.ext ?_)
  match a with
  | ⟨0, _⟩ => rfl
  | ⟨1, _⟩ => rfl
  | ⟨2, _⟩ => rfl

/-- The value stored at the first feature block is zero everywhere. -/
theorem pay1_apply (r : Fin 32) (o : Fin 128) : k1_pay1 (F := Ideal) (ix2 r o) = 0 := by
  unfold Gen.k1_pay1
  refine (congrFun (shapeCast_self _ shapeCasts_S32x128_S32x128) (ix2 r o)).trans ?_
  exact Ideal.ofBits_zero_f32

/-- One entry of the combined [32,128,128] array: if the two spread arrays read h and v there, and the two spread
    magnitudes read |h| and |v|, the entry is the Canberra term of h and v. -/
theorem term_apply (a b a' b' : FVec Ideal S32x128x128 .f32) (i : S32x128x128.Idx) (h v : EReal)
    (ha : a i = h) (hb : b i = v) (ha' : a' i = max h (-h)) (hb' : b' i = max v (-v)) :
    divf (absf (subf a b))
        (select (cmpf .olt (addf a' b') (broadcast S32x128x128 (Scalar.ofBits .f32 0x322BCC77#32)))
          (broadcast S32x128x128 (Scalar.ofBits .f32 0x322BCC77#32)) (addf a' b')) i
      = term h v := by
  show Ideal.div (max (a i - b i) (-(a i - b i)))
      (Scalar.select (Ideal.cmp .olt (a' i + b' i) (Ideal.ofBits .f32 0x322BCC77#32)) (Ideal.ofBits .f32 0x322BCC77#32)
        (a' i + b' i)) = _
  rw [ha, hb, ha', hb']
  rfl

/-- The value stored at every point: the accumulator plus the block's 128 Canberra terms of row r against row o. -/
theorem pay2_apply (v3 : Vec Ideal S32x128 .f32) (v6 : Vec Ideal S128x128 .f32) (v22 : Vec Ideal S32x128 .f32)
    (r : Fin 32) (o : Fin 128) :
    k1_pay2 (F := Ideal) v3 v6 v22 (ix2 r o)
      = v22 (ix2 r o) + ∑ k : Fin 128, term (v3 (ix2 r k)) (v6 (ix2 o k)) := by
  unfold Gen.k1_pay2
  refine (congrFun (shapeCast_self _ shapeCasts_S32x128_S32x128) (ix2 r o)).trans ?_
  refine (addf_apply _ _ (ix2 r o)).trans ?_
  refine congrArg (v22 (ix2 r o) + ·) ?_
  refine (laneSum_apply _ _ _ r o).trans ?_
  refine Finset.sum_congr rfl fun k _ => ?_
  refine term_apply _ _ _ _ (ix3 r o k) (v3 (ix2 r k)) (v6 (ix2 o k)) ?_ ?_ ?_ ?_
  · exact (spreadRow_apply _ r o k).trans (rowCast_apply v3 r k)
  · exact (spreadProto_apply _ r o k).trans (protoCast_apply v6 o k)
  · exact (spreadRow_apply _ r o k).trans (congrArg (fun z : EReal => max z (-z)) (rowCast_apply v3 r k))
  · exact (spreadProto_apply _ r o k).trans (congrArg (fun z : EReal => max z (-z)) (protoCast_apply v6 o k))

/-- The value stored at the last feature block: the reciprocal of the shifted, clipped accumulator. -/
theorem pay3_apply (v31 : Vec Ideal S32x128 .f32) (r : Fin 32) (o : Fin 128) :
    k1_pay3 (F := Ideal) v31 (ix2 r o) = simQ (v31 (ix2 r o)) := by
  unfold Gen.k1_pay3
  rfl

end Cert.KernelIdeal.Frame

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.SpecLemmas.lean ====
/-
  Two small laws of the shared specification.

  (1) The clipped value min cap (max ε (s + ε)) lies between ε and cap for every extended real s, and ε is a
      positive real and cap a real; so it is a positive real r, where the quotient 1 / r and the power r^(−1)
      are the same number r⁻¹.  No finiteness of s is needed.
  (2) A sum over 512 feature positions is the sum over 4 blocks of the sums over the 128 positions of each block.
-/
import proofs.«171390_j89988154785962_1_alg».proof.Proof.Spec
import proofs.«171390_j89988154785962_1_alg».proof.Proof.LibSumDigits
import Mathlib.Analysis.SpecialFunctions.Pow.Real

noncomputable section

namespace Cert.Canberra

open Idealize.ShloMosaic

/-- ε denotes the positive real 11258999 · 2⁻⁵⁰. -/
theorem eps_eq : eps = ((11258999 / 2 ^ 50 : ℝ) : EReal) := by
  unfold eps
  simp [Ideal.ofBits, Ideal.ieee, -EReal.coe_mul]; norm_num

/-- The upper bound denotes the real 10⁶. -/
theorem cap_eq : cap = ((1000000 : ℝ) : EReal) := by
  unfold cap
  simp [Ideal.ofBits, Ideal.ieee, -EReal.coe_mul]; norm_num

/-- The numerator word denotes 1. -/
theorem one_eq : Ideal.ofBits .f32 0x3F800000#32 = ((1 : ℝ) : EReal) := by
  simp [Ideal.ofBits, Ideal.ieee, -EReal.coe_mul]; norm_num

/-- The exponent word denotes −1. -/
theorem negOne_eq : Ideal.ofBits .f32 0xBF800000#32 = ((-1 : ℝ) : EReal) := by
  simp [Ideal.ofBits, Ideal.ieee, -EReal.coe_mul]; norm_num

/-- The clipped value is a positive real, whatever the extended real clipped. -/
theorem clip_pos_real (s : EReal) : ∃ r : ℝ, 0 < r ∧ clip s = (r : EReal) := by
  have he : (0 : ℝ) < 11258999 / 2 ^ 50 := by positivity
  have hec : eps ≤ cap := by
    rw [eps_eq, cap_eq]; exact_mod_cast (by norm_num : (11258999 / 2 ^ 50 : ℝ) ≤ 1000000)
  have hlo : eps ≤ clip s := le_min hec (le_max_left _ _)
  have hhi : clip s ≤ cap := min_le_left _ _
  have hne_top : clip s ≠ ⊤ := ne_top_of_le_ne_top (by rw [cap_eq]; exact EReal.coe_ne_top _) hhi
  have hne_bot : clip s ≠ ⊥ := ne_bot_of_le_ne_bot (by rw [eps_eq]; exact EReal.coe_ne_bot _) hlo
  refine ⟨(clip s).toReal, ?_, (EReal.coe_toReal hne_top hne_bot).symm⟩
  have h : ((11258999 / 2 ^ 50 : ℝ) : EReal) ≤ ((clip s).toReal : EReal) := by
    rw [EReal.coe_toReal hne_top hne_bot, ← eps_eq]; exact hlo
  exact lt_of_lt_of_le he (EReal.coe_le_coe_iff.mp h)

/-- On the clipped value the quotient 1 / z and the power z^(−1) agree: both are the reciprocal of a positive real. -/
theorem simQ_eq_simP (s : EReal) : simQ s = simP s := by
  obtain ⟨r, hr, hc⟩ := clip_pos_real s
  unfold simQ simP
  rw [hc, one_eq, negOne_eq, Ideal.div_coe hr.ne', Ideal.pow_coe_coe, ← EReal.coe_mul]
  congr 1
  show (1 : ℝ) * (1 / r) = r ^ (-1 : ℝ)
  rw [Real.rpow_neg_one, one_mul, one_div]

/-- A sum over the 512 feature positions, block by block: position j · 128 + k is position k of block j. -/
theorem sum_blocks {M : Type*} [AddCommMonoid M] (f : Fin 512 → M) :
    ∑ k : Fin 512, f k = ∑ j : Fin 4, ∑ k : Fin 128, f ⟨j.val * 128 + k.val, by omega⟩ :=
  Cert.SumDigits.sum_fin_mul (m := 4) (n := 128) (by norm_num) f

end Cert.Canberra

end
-- ==== Proof.Read1.lean ====
/-
  Region 1's blocks read where their rectangles say.

  Point n of the 32 × 4 × 4 grid has row block n / 16, prototype block (n / 4) % 4 and feature block n % 4. The hidden
  layer's window takes the 32 × 128 block at (row block, feature block), the prototype window the 128 × 128 block at
  (prototype block, feature block), and the output window the 32 × 128 block at (row block, prototype block). An entry
  of a block sits in its array at block index × block size + its coordinate inside the block, axis by axis.
-/
import proofs.«171390_j89988154785962_1_alg».proof.Proof.Region1Data
import Idealize.ShloMosaic.Lib.ValueIdx
import Idealize.ShloMosaic.Lib.Pipeline.Value

noncomputable section

namespace Cert.KernelIdeal.Frame

open Cert.KernelIdeal Cert.KernelIdeal.Gen
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-- The three windows' block indices at every point, in closed form. -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N, _)

/-- Entry (r, k) of the hidden layer's block at point t is the array's entry at row (t / 16) · 32 + r and column
    (t % 4) · 128 + k. -/
theorem iblk1_0_apply (c : Dev nD) (t : Fin cfg1.N) (r : Fin 32) (k : Fin 128) (i : S1024x512.Idx)
    (h0 : (i 0).val = t.val / 16 * 32 + r.val) (h1 : (i 1).val = t.val % 4 * 128 + k.val) :
    (iblk1 V c 0 t : Vec F S32x128 .f32) (ix2 r k) = V c main_v0 i := by
  obtain ⟨e0, e1, -, -, -, -⟩ := idx_facts1 t
  unfold iblk1
  rw [View.read_apply]
  show V c main_v0 (((cfg1.win 0).blk t).view.emb (ix2 r k)) = V c main_v0 i
  refine congrArg (V c main_v0) (funext fun a => Fin.ext ?_)
  match a with
  | ⟨0, _⟩ => show win1_0.index t (0 : Fin 2) * 32 + 1 * r.val = (i 0).val; omega
  | ⟨1, _⟩ => show win1_0.index t (1 : Fin 2) * 128 + 1 * k.val = (i 1).val; omega

/-- Entry (o, k) of the prototype block at point t is the array's entry at row ((t / 4) % 4) · 128 + o and column
    (t % 4) · 128 + k. -/
theorem iblk1_1_apply (c : Dev nD) (t : Fin cfg1.N) (o : Fin 128) (k : Fin 128) (i : S512x512.Idx)
    (h0 : (i 0).val = t.val / 4 % 4 * 128 + o.val) (h1 : (i 1).val = t.val % 4 * 128 + k.val) :
    (iblk1 V c 1 t : Vec F S128x128 .f32) (ix2 o k) = V c main_arg3 i := by
  obtain ⟨-, -, e0, e1, -, -⟩ := idx_facts1 t
  unfold iblk1
  rw [View.read_apply]
  show V c main_arg3 (((cfg1.win 1).blk t).view.emb (ix2 o k)) = V c main_arg3 i
  refine congrArg (V c main_arg3) (funext fun a => Fin.ext ?_)
  match a with
  | ⟨0, _⟩ => show win1_1.index t (0 : Fin 2) * 128 + 1 * o.val = (i 0).val; omega
  | ⟨1, _⟩ => show win1_1.index t (1 : Fin 2) * 128 + 1 * k.val = (i 1).val; omega

/-- Entry (r, o) of the output block at point t sits in the array at row (t / 16) · 32 + r and column
    ((t / 4) % 4) · 128 + o. -/
theorem oblk1_emb (t : Fin cfg1.N) (r : Fin 32) (o : Fin 128) :
    ((((cfg1.win 2).blk t).view.emb (ix2 r o) : S1024x512.Idx) 0).val = t.val / 16 * 32 + r.val
    ∧ ((((cfg1.win 2).blk t).view.emb (ix2 r o) : S1024x512.Idx) 1).val = t.val / 4 % 4 * 128 + o.val := by
  obtain ⟨-, -, -, -, e0, e1⟩ := idx_facts1 t
  constructor
  · show win1_2.index t (0 : Fin 2) * 32 + 1 * r.val = _; omega
  · show win1_2.index t (1 : Fin 2) * 128 + 1 * o.val = _; omega

/-- An index of the output array is in point t's block iff each coordinate is in the block's range on its axis. -/
theorem mem_oblk1 (t : Fin cfg1.N) (i : S1024x512.Idx) :
    i ∈ ((cfg1.win 2).blk t).view.set
      ↔ ∀ a : Fin 2, win1_2.index t a * S32x128.size a ≤ (i a).val ∧ (i a).val < win1_2.index t a * S32x128.size a + S32x128.size a := by
  show i ∈ ((View.whole main_v1).slice (win1_2.rect t)).set ↔ _
  rw [View.set_slice_whole, Rect.mem_set_unit]
  exact Iff.rfl

end Cert.KernelIdeal.Frame

end
-- ==== Proof.Value1.lean ====
/-
  Region 1's value: the array the distance kernel leaves.

  Between the four feature blocks of one (row block, prototype block) pair the kernel carries a 32 × 128 accumulator:
  zero, then one block's partial Canberra sums after another. After the fourth it holds, at (r, o), the four partial
  sums of hidden row (row block) · 32 + r against prototype row (prototype block) · 128 + o — over the extended reals
  these add up to the whole 512-term distance, in any grouping, with no finiteness needed. The block written back at
  that point is the reciprocal of the shifted, clipped accumulator, and the 32 × 4 blocks written back tile the
  1024 × 512 output, so the output array ends holding the similarity of every (hidden row, prototype row) pair.
-/
import proofs.«171390_j89988154785962_1_alg».proof.Proof.Region1Data
import proofs.«171390_j89988154785962_1_alg».proof.Proof.Pay1
import proofs.«171390_j89988154785962_1_alg».proof.Proof.SpecLemmas
import proofs.«171390_j89988154785962_1_alg».proof.Proof.Read1

noncomputable section

namespace Cert.KernelIdeal.Frame

open Cert.KernelIdeal Cert.KernelIdeal.Gen Cert.Canberra
open Idealize.ShloMosaic Idealize.ShloMosaic.TcCoe Idealize.ShloMosaic.ValueIdx
open Idealize.SL.Sem
open Idealize.ShloMosaic.Pipeline (Dat)

/-- The partial distance over feature block j: the 128 Canberra terms of hidden row p against prototype row q at the
    positions j · 128 + k. -/
def bsum (hA : SH.Idx → EReal) (wd : SD.Idx → EReal) (p : Fin 1024) (q : Fin 512) (j : Fin 4) : EReal :=
  ∑ k : Fin 128, term (hA (ix2 p ⟨j.val * 128 + k.val, by omega⟩)) (wd (ix2 q ⟨j.val * 128 + k.val, by omega⟩))

/-- The distance is the four partial distances added to zero one after another. -/
theorem dist_blocks (hA : SH.Idx → EReal) (wd : SD.Idx → EReal) (p : Fin 1024) (q : Fin 512) :
    (((0 + bsum hA wd p q 0) + bsum hA wd p q 1) + bsum hA wd p q 2) + bsum hA wd p q 3 = Cert.Canberra.dist hA wd p q := by
  unfold Cert.Canberra.dist
  rw [sum_blocks (fun k => term (hA (ix2 p k)) (wd (ix2 q k))), Fin.sum_univ_four, zero_add]
  rfl

variable (V : (c : Dev nD) → (b : Ref sig .tc) → Buf (Elt Ideal) ((c : Thread nD τ).loc b)) (c : Dev nD)

/-- What point t adds to the accumulator at (r, o): the 128 Canberra terms of row r of its hidden block against row o
    of its prototype block. -/
def ptSum (t : Fin cfg1.N) (r : Fin 32) (o : Fin 128) : EReal :=
  ∑ k : Fin 128, term ((iblk1 V c 0 t : Vec Ideal S32x128 .f32) (ix2 r k)) ((iblk1 V c 1 t : Vec Ideal S128x128 .f32) (ix2 o k))

/-- Read off the arrays, point t's addition is the partial distance over feature block t % 4 of hidden row
    (t / 16) · 32 + r against prototype row ((t / 4) % 4) · 128 + o. -/
theorem ptSum_eq (t : Fin cfg1.N) (r : Fin 32) (o : Fin 128) (p : Fin 1024) (q : Fin 512) (j : Fin 4)
    (hp : p.val = t.val / 16 * 32 + r.val) (hq : q.val = t.val / 4 % 4 * 128 + o.val) (hj : j.val = t.val % 4) :
    ptSum V c t r o = bsum (V c main_v0) (V c main_arg3) p q j := by
  unfold ptSum bsum
  refine Finset.sum_congr rfl fun k _ => ?_
  refine congrArg₂ term ?_ ?_
  · exact iblk1_0_apply V c t r k (ix2 p ⟨j.val * 128 + k.val, by omega⟩) hp (by show j.val * 128 + k.val = _; rw [hj])
  · exact iblk1_1_apply V c t o k (ix2 q ⟨j.val * 128 + k.val, by omega⟩) hq (by show j.val * 128 + k.val = _; rw [hj])

/-- At feature block 0 the accumulator is zero plus the point's addition. -/
theorem acc_first (t : Fin cfg1.N) (h : t.val % 4 = 0) (r : Fin 32) (o : Fin 128) :
    accAt V c t.val t.isLt (ix2 r o) = 0 + ptSum V c t r o :=
  (congrFun (accAt_first V c t h) (ix2 r o)).trans
    ((pay2_apply (iblk1 V c 0 t) (iblk1 V c 1 t) (k1_pay1 (F := Ideal)) r o).trans
      (congrArg (· + ptSum V c t r o) (pay1_apply r o)))

/-- At the other feature blocks it is what the point before left plus the point's addition. -/
theorem acc_next (n : ℕ) (hn : n + 1 < cfg1.N) (h : ¬(n + 1) % 4 = 0) (r : Fin 32) (o : Fin 128) :
    accAt V c (n + 1) hn (ix2 r o) = accAt V c n (Nat.lt_of_succ_lt hn) (ix2 r o) + ptSum V c ⟨n + 1, hn⟩ r o :=
  (congrFun (accAt_next V c ⟨n + 1, hn⟩ h) (ix2 r o)).trans
    (pay2_apply (iblk1 V c 0 ⟨n + 1, hn⟩) (iblk1 V c 1 ⟨n + 1, hn⟩) (accAt V c n (Nat.lt_of_succ_lt hn)) r o)

/-- After feature block 3 the accumulator holds the whole distance of hidden row (t / 16) · 32 + r to prototype row
    ((t / 4) % 4) · 128 + o. -/
theorem acc_last (t : Fin cfg1.N) (h : t.val % 4 = 3) (r : Fin 32) (o : Fin 128) (p : Fin 1024) (q : Fin 512)
    (hp : p.val = t.val / 16 * 32 + r.val) (hq : q.val = t.val / 4 % 4 * 128 + o.val) :
    accAt V c t.val t.isLt (ix2 r o) = Cert.Canberra.dist (V c main_v0) (V c main_arg3) p q := by
  have hN : cfg1.N = 512 := Gen.N_1
  obtain ⟨n, hn⟩ := t
  obtain ⟨m, rfl⟩ : ∃ m, n = m + 3 := ⟨n - 3, by dsimp only at h; omega⟩
  dsimp only at h hp hq ⊢
  have hm : m < cfg1.N := by omega
  have hm1 : m + 1 < cfg1.N := by omega
  have hm2 : m + 2 < cfg1.N := by omega
  rw [acc_next V c (m + 2) hn (by omega) r o, acc_next V c (m + 1) hm2 (by omega) r o,
    acc_next V c m hm1 (by omega) r o, acc_first V c ⟨m, hm⟩ (by dsimp only; omega) r o,
    ptSum_eq V c ⟨m, hm⟩ r o p q 0 (by dsimp only; omega) (by dsimp only; omega) (by dsimp only; omega),
    ptSum_eq V c ⟨m + 1, hm1⟩ r o p q 1 (by dsimp only; omega) (by dsimp only; omega) (by dsimp only; omega),
    ptSum_eq V c ⟨m + 2, hm2⟩ r o p q 2 (by dsimp only; omega) (by dsimp only; omega) (by dsimp only; omega),
    ptSum_eq V c ⟨m + 3, hn⟩ r o p q 3 (by dsimp only; omega) (by dsimp only; omega) (by dsimp only; omega)]
  exact dist_blocks (V c main_v0) (V c main_arg3) p q

/-- What a point of feature block 3 writes back is its block of the similarity array. -/
theorem flushed1_eq (t : Fin cfg1.N) (hf : (cfg1.win 2).flush t = true) :
    (dat1 (F := Ideal) V c).flushed 2 t
      = ((cfg1.win 2).blk t).view.read (Elt Ideal) (simArr (V c main_v0) (V c main_arg3)) := by
  have h3 : t.val % 4 = 3 := (flush1_2 t).mp hf
  show (cfg1.win 2).cut (grid1.coords t) ((dat1 (F := Ideal) V c).after 2 t) = _
  rw [after1_2]
  funext y
  obtain ⟨r, o, rfl⟩ : ∃ (r : Fin 32) (o : Fin 128), y = ix2 r o := ⟨y 0, y 1, eq_ix2 y⟩
  rw [View.read_apply]
  obtain ⟨e0, e1⟩ := oblk1_emb t r o
  show k1_pay3 (F := Ideal) (accAt V c t.val t.isLt) (ix2 r o)
    = simQ (Cert.Canberra.dist (V c main_v0) (V c main_arg3) ((((cfg1.win 2).blk t).view.emb (ix2 r o) : S1024x512.Idx) 0)
        ((((cfg1.win 2).blk t).view.emb (ix2 r o) : S1024x512.Idx) 1))
  refine (pay3_apply (accAt V c t.val t.isLt) r o).trans (congrArg simQ ?_)
  exact acc_last V c t h3 r o _ _ e0 e1

/-- The array the region leaves: the similarity of every hidden row to every prototype row, computed from the
    region-entry contents of the hidden layer and the prototypes. -/
theorem final1 : (dat1 (F := Ideal) V c).arrAt 2 cfg1.N = simArr (V c main_v0) (V c main_arg3) := by
  have hN : cfg1.N = 512 := Gen.N_1
  refine (dat1 (F := Ideal) V c).arrAt_eq_of_cover 2 (simArr (V c main_v0) (V c main_arg3))
    (fun t hf => flushed1_eq V c t hf) fun i => ?_
  have hi0 : (i 0).val < 1024 := (i 0).isLt
  have hi1 : (i 1).val < 512 := (i 1).isLt
  refine ⟨⟨(i 0).val / 32 * 16 + (i 1).val / 128 * 4 + 3, by omega⟩, (flush1_2 _).mpr (by dsimp only; omega), ?_⟩
  rw [mem_oblk1]
  obtain ⟨-, -, -, -, e0, e1⟩ := idx_facts1 ⟨(i 0).val / 32 * 16 + (i 1).val / 128 * 4 + 3, by omega⟩
  dsimp only at e0 e1
  intro a
  match a with
  | ⟨0, _⟩ =>
    show win1_2.index _ (0 : Fin 2) * 32 ≤ (i 0).val ∧ (i 0).val < win1_2.index _ (0 : Fin 2) * 32 + 32
    omega
  | ⟨1, _⟩ =>
    show win1_2.index _ (1 : Fin 2) * 128 ≤ (i 1).val ∧ (i 1).val < win1_2.index _ (1 : Fin 2) * 128 + 128
    omega

end Cert.KernelIdeal.Frame

end
-- ==== Proof.Bridge.lean ====
/-
  The idealized kernel's result is the specification `G` of its arguments.

  The run over the two regions names the result array after region 1 as a function of the buffers region 1 found;
  of those, the hidden layer is what region 0 left — `hidA` of the launch contents of x, w, b — and the prototypes
  are as launched. Region 1 turns them into the similarity written as a quotient, which is the power form of `G`
  because the clipped distance is a positive real.
-/
import proofs.«171390_j89988154785962_1_alg».proof.Proof.Run
import proofs.«171390_j89988154785962_1_alg».proof.Proof.Value0
import proofs.«171390_j89988154785962_1_alg».proof.Proof.Value1
import proofs.«171390_j89988154785962_1_alg».proof.Proof.SpecLemmas

noncomputable section

namespace Cert.KernelIdeal.Frame

open Cert.KernelIdeal Cert.KernelIdeal.Gen
open Idealize.ShloMosaic Idealize.ShloMosaic.TcCoe Idealize.SL.Sem

/-- The quotient form of the second stage over the hidden layer is the whole computation in its power form. -/
theorem simArr_hidA (x : Cert.Canberra.SX.Idx → EReal) (w : Cert.Canberra.SW.Idx → EReal) (b : Cert.Canberra.SB.Idx → EReal)
    (wd : Cert.Canberra.SD.Idx → EReal) :
    Cert.Canberra.simArr (Cert.Canberra.hidA x w b) wd = Cert.Canberra.G x w b wd := by
  funext i
  unfold Cert.Canberra.simArr Cert.Canberra.G
  exact Cert.Canberra.simQ_eq_simP _

/-- Every weakly fair execution of the idealized kernel terminates with the result at `G` of the launch contents of
    the four arguments, which end unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.Canberra.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨(h c).1.trans (by
      rw [final1 (Ve1 m) c, Ve1_v0 m c, Ve1_arg3 m c, final0 (Ve0 m) c, Ve0_arg0 m c, Ve0_arg1 m c, Ve0_arg2 m c]
      exact simArr_hidA _ _ _ _), (h c).2⟩)
    (run_full (F := Ideal) m ρ)

end Cert.KernelIdeal.Frame

end
-- ==== Proof.RefValue.lean ====
/-
  The reference program's result, read index by index, is the specification G.

  Entry (p, o) of the reference's result is the power (clip z)^(−1) of z = 0 + Σ_k t(p, o, k) + ε — the sum over the
  512 feature positions of the Canberra terms of hidden row p against prototype row o — where the hidden entry (p, k)
  is max(Σ_d x[p,d]·w[k,d] + b[k], 0).  The broadcasts only repeat an entry along the axis the other operand varies
  on, so each stage at an index reads its operands at the coordinates that index keeps.
-/
import proofs.«171390_j89988154785962_1_alg».proof.Proof.Gen.ReferenceIdeal.Read
import proofs.«171390_j89988154785962_1_alg».proof.Proof.Spec

noncomputable section

namespace Cert.ReferenceIdeal.RefValue

open Cert.ReferenceIdeal Cert.ReferenceIdeal.Gen Cert.ReferenceIdeal.Read Cert.Canberra
open Idealize.ShloMosaic Idealize.ShloMosaic.TcCoe Idealize.SL.Sem Idealize.ShloMosaic.StableHlo Idealize.ShloMosaic.ValueIdx

variable (x0 : (⟨S1024x1024, .f32⟩ : BufTy).Contents (Elt Ideal)) (x1 : (⟨S512x1024, .f32⟩ : BufTy).Contents (Elt Ideal))
  (x2 : (⟨S512, .f32⟩ : BufTy).Contents (Elt Ideal)) (x3 : (⟨S512x512, .f32⟩ : BufTy).Contents (Elt Ideal))

/-- The hidden stage at (p, q): the row of x against the row of w, plus the bias, and the positive part. -/
theorem hidden_at (p : Fin 1024) (q : Fin 512) :
    val_main_v4 (F := Ideal) x0 x1 x2 (ix2 p q) = hid x0 x1 x2 p q := by
  have hl : ∀ k : Fin 1024, lidx_main_v0 (ix2 p q) k = ix2 p k := fun k =>
    funext fun a => by match a with | ⟨0, _⟩ => rfl | ⟨1, _⟩ => rfl
  have hr : ∀ k : Fin 1024, ridx_main_v0 (ix2 p q) k = ix2 q k := fun k =>
    funext fun a => by match a with | ⟨0, _⟩ => rfl | ⟨1, _⟩ => rfl
  have hb : idx_main_v1 (idx_main_v2 (ix2 p q)) = ix1 q :=
    funext fun a => by match a with | ⟨0, _⟩ => rfl
  rw [val_main_v4_apply, val_main_v3_apply, val_main_v0_apply, val_main_v2_apply, val_main_v1_apply,
    val_main_call0_v0_apply, val_main_call0_cst_apply]
  simp only [hl, hr, hb, Ideal.ofBits_def, Ideal.ofBits_zero_f32]
  rfl

/-- One Canberra term of the reference at (p, o, k): hidden entry (p, k) against prototype entry (o, k). -/
theorem term_at (p : Fin 1024) (o k : Fin 512) :
    val_main_v19 (F := Ideal) x0 x1 x2 x3 (ix3 p o k)
      = term (val_main_v4 (F := Ideal) x0 x1 x2 (ix2 p k)) (x3 (ix2 o k)) := by
  have h7 : idx_main_v5 (idx_main_v7 (ix3 p o k)) = ix2 p k :=
    funext fun a => by match a with | ⟨0, _⟩ => rfl | ⟨1, _⟩ => rfl
  have h8 : idx_main_v6 (idx_main_v8 (ix3 p o k)) = ix2 o k :=
    funext fun a => by match a with | ⟨0, _⟩ => rfl | ⟨1, _⟩ => rfl
  rw [val_main_v19_apply, val_main_v10_apply, val_main_v9_apply, val_main_v7_apply, val_main_v5_apply, val_main_v8_apply,
    val_main_v6_apply, val_main_v18_apply, val_main_v17_apply, val_main_v15_apply, val_main_v13_apply, val_main_v11_apply,
    val_main_v5_apply, val_main_v14_apply, val_main_v12_apply, val_main_v6_apply, val_main_v16_apply, val_main_cst_apply,
    val_main_call1_v1_apply, val_main_call1_v0_apply, val_main_cst_0_apply, h7, h8]
  generalize val_main_v4 (F := Ideal) x0 x1 x2 (ix2 p k) = h
  generalize x3 (ix2 o k) = v
  rfl

/-- The reference's sum stage at (p, o) is the Canberra distance of hidden row p to prototype row o. -/
theorem dist_at (p : Fin 1024) (o : Fin 512) :
    val_main_v20 (F := Ideal) x0 x1 x2 x3 (ix2 p o) = Cert.Canberra.dist (hidA x0 x1 x2) x3 p o := by
  have h20 : ∀ k : Fin 512, idx_main_v20 (ix2 p o) k = ix3 p o k := fun k =>
    funext fun a => by match a with | ⟨0, _⟩ => rfl | ⟨1, _⟩ => rfl | ⟨2, _⟩ => rfl
  rw [val_main_v20_apply, val_main_cst_1_apply, Ideal.ofBits_def, Ideal.ofBits_zero_f32, zero_add]
  unfold Cert.Canberra.dist
  refine Finset.sum_congr rfl fun k _ => ?_
  rw [h20, term_at, hidden_at]
  rfl

/-- The reference's result is the specification, entry by entry. -/
theorem ref_is_G :
    Cert.ReferenceIdeal.Read.val_main_v25 (F := Ideal) x0 x1 x2 x3 = Cert.Canberra.G x0 x1 x2 x3 := by
  funext i
  obtain ⟨p, o, rfl⟩ : ∃ (p : Fin 1024) (o : Fin 512), i = ix2 p o := ⟨i 0, i 1, eq_ix2 i⟩
  rw [val_main_v25_apply, val_main_v23_apply, val_main_call2_v4_apply, val_main_call2_v3_apply, val_main_cst_4_apply,
    val_main_call2_v2_apply, val_main_call2_v1_apply, val_main_call2_v0_apply, val_main_cst_3_apply, val_main_v22_apply,
    val_main_v21_apply, val_main_cst_2_apply, val_main_v24_apply, val_main_cst_5_apply, dist_at]
  rfl

/-- Every weakly fair execution of the reference ends with its result array at the specification of the argument
    arrays it started from, and with those arrays unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread nD τ).loc main_v25)
          = Cert.Canberra.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run Cert.ReferenceIdeal.defs _ _).mono
    (fun _ h c => ⟨(h c).1.trans ((val_main_v25_eq (F := Ideal) _ _ _ _).trans (ref_is_G _ _ _ _)), (h c).2⟩)
    (Cert.ReferenceIdeal.Value.run (F := Ideal) m ρ)

end Cert.ReferenceIdeal.RefValue

end
-- ==== Proof.lean ====
/-
  The five claims.

  Both printed kernels run their two regions one after the other: the first computes the hidden layer
  max(x·wᵀ + b, 0) block of rows by block of rows; the second walks a 32 × 4 × 4 grid, accumulating over the four
  feature blocks the Canberra terms |h − v| / den(|h| + |v|) of a block of hidden rows against a block of prototype
  rows, and at the last feature block stores the reciprocal of the accumulated distance shifted by ε and clipped to
  [ε, 10⁶]. The frames of the two kernels are that run with the result dropped (the same text at the word level and
  over the extended reals); the reference's frame is its run. The idealization rewrote nothing. Over the extended reals
  the kernel's result and the reference's are one function of the arguments: sums over four blocks of 128 are the
  sum over 512 (addition on the extended reals is commutative and associative), and the reciprocal 1 / z is the power
  z^(−1) at the clipped value z, a positive real whatever the inputs — so no finiteness of the inputs is used.
-/
import proofs.«171390_j89988154785962_1_alg».proof.Defs
import proofs.«171390_j89988154785962_1_alg».proof.Proof.Gen.Kernel
import proofs.«171390_j89988154785962_1_alg».proof.Proof.Gen.KernelIdeal
import proofs.«171390_j89988154785962_1_alg».proof.Proof.Gen.ReferenceIdeal
import proofs.«171390_j89988154785962_1_alg».proof.Proof.Gen.Pre_finite_inputs
import proofs.«171390_j89988154785962_1_alg».proof.Proof.KRun
import proofs.«171390_j89988154785962_1_alg».proof.Proof.Bridge
import proofs.«171390_j89988154785962_1_alg».proof.Proof.RefValue

noncomputable section

namespace Cert.Proof

open Idealize.ShloMosaic Idealize.ShloMosaic.TcCoe Idealize.SL.Sem

/-- The word-level kernel runs and leaves its arguments unchanged. -/
theorem frame_p : Cert.frame_Kernel := fun m ρ _ =>
  Cert.Kernel.Frame.frame (F := Bits) m ρ

/-- So does the idealized kernel. -/
theorem frame_pi : Cert.frame_KernelIdeal := fun m ρ _ =>
  Cert.KernelIdeal.Frame.frame (F := Ideal) m ρ

/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result at `G` of the arguments. -/
theorem algebraic : Cert.algebraic_KernelIdeal_ReferenceIdeal := by
  intro m ρ m' ρ' _ hagree
  refine ⟨_, Cert.KernelIdeal.Frame.run_G m ρ, ?_⟩
  refine (θ_run (Cert.ReferenceIdeal.defs (F := Ideal)) _ _).mono (fun _ h c => ⟨(h c).1.trans ?_, (h c).2⟩)
    (Cert.ReferenceIdeal.RefValue.run_G m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
